-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128 .f32) (main_arg11 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128 .f32) (main_arg9 : FVec F S128 .f32) (main_arg10 : FVec F S128 .f32) (main_arg11 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S5000x128 : Shape := ⟨2, ![5000, 128]⟩
abbrev S1700000x128 : Shape := ⟨2, ![1700000, 128]⟩
abbrev S5000 : Shape := ⟨1, ![5000]⟩
abbrev S5000x1 : Shape := ⟨2, ![5000, 1]⟩

abbrev nBuf : Space → Nat
  | .hbm => 112
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S100000, .i32⟩
  | .hbm, ⟨17, _⟩ => ⟨S1700000, .i32⟩
  | .hbm, ⟨18, _⟩ => ⟨S1700000, .i32⟩
  | .hbm, ⟨19, _⟩ => ⟨S_, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S1700000x1, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S100000x128, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x128, .f32⟩
  | .hbm, ⟨70, _⟩ => ⟨S1700000x128, .f32⟩
  | .hbm, ⟨71, _⟩ => ⟨S1700000x128, .f32⟩
  | .hbm, ⟨72, _⟩ => ⟨S_, .f32⟩
  | .hbm, ⟨73, _⟩ => ⟨S100000x128, .f32⟩
  | .hbm, ⟨74, _⟩ => ⟨S1700000x1, .i32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1700000x128, .f32⟩
  | .hbm, ⟨88, _⟩ => ⟨S1700000x128, .f32⟩
  | .hbm, ⟨89, _⟩ => ⟨S1700000x128, .f32⟩
  | .hbm, ⟨90, _⟩ => ⟨S_, .f32⟩
  | .hbm, ⟨91, _⟩ => ⟨S100000x128, .f32⟩
  | .hbm, ⟨92, _⟩ => ⟨S1700000x1, .i32⟩
  | .hbm, ⟨93, _⟩ => ⟨S100000x128, .f32⟩
  | .hbm, ⟨94, _⟩ => ⟨S100000x128, .f32⟩
  | .hbm, ⟨95, _⟩ => ⟨S100000x128, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000x128, .f32⟩
  | .hbm, ⟨105, _⟩ => ⟨S1700000x128, .f32⟩
  | .hbm, ⟨106, _⟩ => ⟨S1700000x128, .f32⟩
  | .hbm, ⟨107, _⟩ => ⟨S_, .f32⟩
  | .hbm, ⟨108, _⟩ => ⟨S100000x128, .f32⟩
  | .hbm, ⟨109, _⟩ => ⟨S1700000x1, .i32⟩
  | .hbm, ⟨110, _⟩ => ⟨S100000x128, .f32⟩
  | .hbm, ⟨111, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_6 : Ref sig .tc := ⟨.hbm, 61, rfl⟩
abbrev main_v39 : Ref sig .tc := ⟨.hbm, 62, rfl⟩
abbrev main_v40 : Ref sig .tc := ⟨.hbm, 63, rfl⟩
abbrev main_c_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_9 : Ref sig .tc := ⟨.hbm, 79, rfl⟩
abbrev main_v54 : Ref sig .tc := ⟨.hbm, 80, rfl⟩
abbrev main_v55 : Ref sig .tc := ⟨.hbm, 81, rfl⟩
abbrev main_c_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_11 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_12 : Ref sig .tc := ⟨.hbm, 96, rfl⟩
abbrev main_v68 : Ref sig .tc := ⟨.hbm, 97, rfl⟩
abbrev main_v69 : Ref sig .tc := ⟨.hbm, 98, rfl⟩
abbrev main_c_13 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc4_stg3_0 : Ref sig .tc := ⟨.vmem, 26, rfl⟩
abbrev cc4_stg3_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg2_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg3_0 : Ref sig .tc := ⟨.vmem, 37, rfl⟩
abbrev cc6_stg4_0 : Ref sig .tc := ⟨.vmem, 38, rfl⟩
abbrev cc6_stg4_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25
abbrev cc4_sem3_0 : DmaSem sig := 26
abbrev cc4_sem3_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem2_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem3_0 : DmaSem sig := 37
abbrev cc6_sem4_0 : DmaSem sig := 38
abbrev cc6_sem4_1 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S100000x128.size a
  hwx6_4 : ∀ i : grid6.Coords, EltTy.bits .f32 = 32 ∨ (Rect.block (s := S100000x128) S5000x128.size (cc6_transform_4 i) (hinb6_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v51) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v52) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v65) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v32) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v51) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v66) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v66) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg6) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v67) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v79) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v33) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v36) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v37) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v80) S5000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩

abbrev nBuf : Space → Nat
  | .hbm => 249
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128, .f32⟩
  | 9 => ⟨S128, .f32⟩
  | 10 => ⟨S128, .f32⟩
  | 11 => ⟨S128, .f32⟩
  | 12 => ⟨S1x1600000, .i32⟩
  | 13 => ⟨S1600000, .i32⟩
  | 14 => ⟨S1x1600000, .i32⟩
  | 15 => ⟨S1600000, .i32⟩
  | 16 => ⟨S100000x128, .f32⟩
  | 17 => ⟨S100000, .i32⟩
  | 18 => ⟨S1700000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x1, .f32⟩
  | 63 => ⟨S1700000x128, .f32⟩
  | 64 => ⟨S1700000x128, .f32⟩
  | 65 => ⟨S_, .f32⟩
  | 66 => ⟨S100000x128, .f32⟩
  | 67 => ⟨S1700000x1, .i32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S_, .f32⟩
  | 76 => ⟨S100000, .f32⟩
  | 77 => ⟨S100000x1, .f32⟩
  | 78 => ⟨S_, .f32⟩
  | 79 => ⟨S100000x1, .f32⟩
  | 80 => ⟨S100000x1, .f32⟩
  | 81 => ⟨S100000x128, .f32⟩
  | 82 => ⟨S100000x128, .f32⟩
  | 83 => ⟨S100000x128, .f32⟩
  | 84 => ⟨S_, .f32⟩
  | 85 => ⟨S100000, .f32⟩
  | 86 => ⟨S100000x1, .f32⟩
  | 87 => ⟨S_, .f32⟩
  | 88 => ⟨S100000x1, .f32⟩
  | 89 => ⟨S100000x1, .f32⟩
  | 90 => ⟨S100000x128, .f32⟩
  | 91 => ⟨S100000x128, .f32⟩
  | 92 => ⟨S_, .f32⟩
  | 93 => ⟨S100000x1, .f32⟩
  | 94 => ⟨S100000x1, .f32⟩
  | 95 => ⟨S100000x1, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S100000x128, .f32⟩
  | 105 => ⟨S100000, .i32⟩
  | 106 => ⟨S1700000, .i32⟩
  | 107 => ⟨S1700000, .i32⟩
  | 108 => ⟨S_, .f32⟩
  | 109 => ⟨S1700000, .f32⟩
  | 110 => ⟨S_, .f32⟩
  | 111 => ⟨S100000, .f32⟩
  | 112 => ⟨S1700000x1, .i32⟩
  | 113 => ⟨S100000, .f32⟩
  | 114 => ⟨S_, .f32⟩
  | 115 => ⟨S100000, .f32⟩
  | 116 => ⟨S100000, .i1⟩
  | 117 => ⟨S100000, .f32⟩
  | 118 => ⟨S_, .f32⟩
  | 119 => ⟨S_, .f32⟩
  | 120 => ⟨S100000, .f32⟩
  | 121 => ⟨S100000, .f32⟩
  | 122 => ⟨S_, .i32⟩
  | 123 => ⟨S1700000, .i32⟩
  | 124 => ⟨S1700000, .i1⟩
  | 125 => ⟨S_, .i32⟩
  | 126 => ⟨S1700000, .i32⟩
  | 127 => ⟨S1700000, .i32⟩
  | _ => ⟨S100000x128, .f32⟩

abbrev hbmTy0_1 (i : Nat) : BufTy := match i % 128 with
  | 0 => ⟨S1700000, .i32⟩
  | 1 => ⟨S1700000x1, .i32⟩
  | 2 => ⟨S1700000, .f32⟩
  | 3 => ⟨S_, .i32⟩
  | 4 => ⟨S1700000, .i32⟩
  | 5 => ⟨S1700000, .i1⟩
  | 6 => ⟨S_, .i32⟩
  | 7 => ⟨S1700000, .i32⟩
  | 8 => ⟨S1700000, .i32⟩
  | 9 => ⟨S1700000, .i32⟩
  | 10 => ⟨S1700000x1, .i32⟩
  | 11 => ⟨S1700000, .f32⟩
  | 12 => ⟨S1700000, .f32⟩
  | 13 => ⟨S_, .i32⟩
  | 14 => ⟨S1700000, .i32⟩
  | 15 => ⟨S1700000, .i1⟩
  | 16 => ⟨S_, .i32⟩
  | 17 => ⟨S1700000, .i32⟩
  | 18 => ⟨S1700000, .i32⟩
  | 19 => ⟨S1700000, .i32⟩
  | 20 => ⟨S1700000x1, .i32⟩
  | 21 => ⟨S1700000x128, .f32⟩
  | 22 => ⟨S1700000x1, .f32⟩
  | 23 => ⟨S1700000x128, .f32⟩
  | 24 => ⟨S1700000x128, .f32⟩
  | 25 => ⟨S_, .f32⟩
  | 26 => ⟨S100000x128, .f32⟩
  | 27 => ⟨S1700000x1, .i32⟩
  | 28 => ⟨S100000x128, .f32⟩
  | 29 => ⟨S1x128, .f32⟩
  | 30 => ⟨S100000x128, .f32⟩
  | 31 => ⟨S100000x128, .f32⟩
  | 32 => ⟨S_, .f32⟩
  | 33 => ⟨S100000x128, .f32⟩
  | 34 => ⟨S100000x128, .f32⟩
  | 35 => ⟨S100000x128, .f32⟩
  | 36 => ⟨S100000x128, .f32⟩
  | 37 => ⟨S100000, .i32⟩
  | 38 => ⟨S1700000, .i32⟩
  | 39 => ⟨S1700000, .i32⟩
  | 40 => ⟨S_, .f32⟩
  | 41 => ⟨S1700000, .f32⟩
  | 42 => ⟨S_, .f32⟩
  | 43 => ⟨S100000, .f32⟩
  | 44 => ⟨S1700000x1, .i32⟩
  | 45 => ⟨S100000, .f32⟩
  | 46 => ⟨S_, .f32⟩
  | 47 => ⟨S100000, .f32⟩
  | 48 => ⟨S100000, .i1⟩
  | 49 => ⟨S100000, .f32⟩
  | 50 => ⟨S_, .f32⟩
  | 51 => ⟨S_, .f32⟩
  | 52 => ⟨S100000, .f32⟩
  | 53 => ⟨S100000, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000, .f32⟩
  | 63 => ⟨S_, .i32⟩
  | 64 => ⟨S1700000, .i32⟩
  | 65 => ⟨S1700000, .i1⟩
  | 66 => ⟨S_, .i32⟩
  | 67 => ⟨S1700000, .i32⟩
  | 68 => ⟨S1700000, .i32⟩
  | 69 => ⟨S1700000, .i32⟩
  | 70 => ⟨S1700000x1, .i32⟩
  | 71 => ⟨S1700000, .f32⟩
  | 72 => ⟨S1700000, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S1700000x128, .f32⟩
  | 82 => ⟨S1700000x1, .f32⟩
  | 83 => ⟨S1700000x128, .f32⟩
  | 84 => ⟨S1700000x128, .f32⟩
  | 85 => ⟨S_, .f32⟩
  | 86 => ⟨S100000x128, .f32⟩
  | 87 => ⟨S1700000x1, .i32⟩
  | 88 => ⟨S100000x128, .f32⟩
  | 89 => ⟨S1x128, .f32⟩
  | 90 => ⟨S100000x128, .f32⟩
  | 91 => ⟨S100000x128, .f32⟩
  | 92 => ⟨S_, .f32⟩
  | 93 => ⟨S100000, .f32⟩
  | 94 => ⟨S100000x1, .f32⟩
  | 95 => ⟨S_, .f32⟩
  | 96 => ⟨S100000x1, .f32⟩
  | 97 => ⟨S100000x1, .f32⟩
  | 98 => ⟨S100000x128, .f32⟩
  | 99 => ⟨S100000x128, .f32⟩
  | 100 => ⟨S100000x128, .f32⟩
  | 101 => ⟨S_, .f32⟩
  | 102 => ⟨S100000, .f32⟩
  | 103 => ⟨S100000x1, .f32⟩
  | 104 => ⟨S_, .f32⟩
  | 105 => ⟨S100000x1, .f32⟩
  | 106 => ⟨S100000x1, .f32⟩
  | 107 => ⟨S100000x128, .f32⟩
  | 108 => ⟨S100000x128, .f32⟩
  | 109 => ⟨S_, .f32⟩
  | 110 => ⟨S100000x1, .f32⟩
  | 111 => ⟨S100000x1, .f32⟩
  | 112 => ⟨S100000x1, .f32⟩
  | 113 => ⟨S100000x128, .f32⟩
  | 114 => ⟨S100000x128, .f32⟩
  | 115 => ⟨S1x128, .f32⟩
  | 116 => ⟨S100000x128, .f32⟩
  | 117 => ⟨S100000x128, .f32⟩
  | 118 => ⟨S1x128, .f32⟩
  | 119 => ⟨S100000x128, .f32⟩
  | 120 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_cst_9 : Ref sig .tc := ⟨.hbm, 75, rfl⟩
abbrev main_v48 : Ref sig .tc := ⟨.hbm, 76, rfl⟩
abbrev main_v49 : Ref sig .tc := ⟨.hbm, 77, rfl⟩
abbrev main_cst_10 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_v56 : Ref sig .tc := ⟨.hbm, 86, rfl⟩
abbrev main_cst_12 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_13 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_14 : Ref sig .tc := ⟨.hbm, 108, rfl⟩
abbrev main_v76 : Ref sig .tc := ⟨.hbm, 109, rfl⟩
abbrev main_cst_15 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_16 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_17 : Ref sig .tc := ⟨.hbm, 118, rfl⟩
abbrev main_call2_v0 : Ref sig .tc := ⟨.hbm, 119, rfl⟩
abbrev main_call2_v1 : Ref sig .tc := ⟨.hbm, 120, rfl⟩
abbrev main_v83 : Ref sig .tc := ⟨.hbm, 121, rfl⟩
abbrev main_c_18 : Ref sig .tc := ⟨.hbm, 122, rfl⟩
abbrev main_v84 : Ref sig .tc := ⟨.hbm, 123, rfl⟩
abbrev main_v85 : Ref sig .tc := ⟨.hbm, 124, rfl⟩
abbrev main_c_19 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_c_20 : Ref sig .tc := ⟨.hbm, 131, rfl⟩
abbrev main_v91 : Ref sig .tc := ⟨.hbm, 132, rfl⟩
abbrev main_v92 : Ref sig .tc := ⟨.hbm, 133, rfl⟩
abbrev main_c_21 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_c_22 : Ref sig .tc := ⟨.hbm, 141, rfl⟩
abbrev main_v99 : Ref sig .tc := ⟨.hbm, 142, rfl⟩
abbrev main_v100 : Ref sig .tc := ⟨.hbm, 143, rfl⟩
abbrev main_c_23 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_24 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_call3_cst : Ref sig .tc := ⟨.hbm, 160, rfl⟩
abbrev main_call3_v0 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_cst_25 : Ref sig .tc := ⟨.hbm, 168, rfl⟩
abbrev main_v121 : Ref sig .tc := ⟨.hbm, 169, rfl⟩
abbrev main_cst_26 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_27 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_cst_28 : Ref sig .tc := ⟨.hbm, 178, rfl⟩
abbrev main_call4_v0 : Ref sig .tc := ⟨.hbm, 179, rfl⟩
abbrev main_call4_v1 : Ref sig .tc := ⟨.hbm, 180, rfl⟩
abbrev main_v128 : Ref sig .tc := ⟨.hbm, 181, rfl⟩
abbrev main_c_29 : Ref sig .tc := ⟨.hbm, 182, rfl⟩
abbrev main_v129 : Ref sig .tc := ⟨.hbm, 183, rfl⟩
abbrev main_v130 : Ref sig .tc := ⟨.hbm, 184, rfl⟩
abbrev main_c_30 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_c_31 : Ref sig .tc := ⟨.hbm, 191, rfl⟩
abbrev main_v136 : Ref sig .tc := ⟨.hbm, 192, rfl⟩
abbrev main_v137 : Ref sig .tc := ⟨.hbm, 193, rfl⟩
abbrev main_c_32 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_c_33 : Ref sig .tc := ⟨.hbm, 201, rfl⟩
abbrev main_v144 : Ref sig .tc := ⟨.hbm, 202, rfl⟩
abbrev main_v145 : Ref sig .tc := ⟨.hbm, 203, rfl⟩
abbrev main_c_34 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_cst_35 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_cst_36 : Ref sig .tc := ⟨.hbm, 220, rfl⟩
abbrev main_v160 : Ref sig .tc := ⟨.hbm, 221, rfl⟩
abbrev main_v161 : Ref sig .tc := ⟨.hbm, 222, rfl⟩
abbrev main_cst_37 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_cst_38 : Ref sig .tc := ⟨.hbm, 229, rfl⟩
abbrev main_v167 : Ref sig .tc := ⟨.hbm, 230, rfl⟩
abbrev main_v168 : Ref sig .tc := ⟨.hbm, 231, rfl⟩
abbrev main_cst_39 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_cst_40 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.HostChain.lean ====
/-
  The host's share of one graph convolution, as functions of the edge list. An edge list e : [2, 1600000] gives the
  source and target nodes of 1600000 edges; 100000 self loops are appended to both (`srcIdx`, `dstIdx`: 1700000 entries
  each). A node's degree is the number of entries of `dstIdx` that name it (`degree`, a scatter of ones); its weight is
  the reciprocal square root of the degree where that is positive and zero elsewhere (`invSqrtDeg`); an edge's
  coefficient is the product of its two end nodes' weights, read through indices with negative values wrapped once
  (`wrapIdx`), kept as a column (`normCol`). One convolution of node features h : [100000, 128] gathers the source
  node's row for every edge, scales it by the edge's coefficient, and adds it into the target node's row (`conv`).
-/
import proofs.«118496_j57329223467299_1_alg».proof.Proof.Gen.KernelIdeal

noncomputable section

namespace Cert.KernelIdeal.Hand

open Cert.KernelIdeal Cert.KernelIdeal.Gen Idealize.ShloMosaic

variable {F : FTy → Type} [FloatOps F]

/-- The source node of every edge, then of every self loop. -/
def srcIdx (e : (⟨S2x1600000, .i32⟩ : BufTy).Contents (Elt F)) : (⟨S1700000, .i32⟩ : BufTy).Contents (Elt F) :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- The target node of every edge, then of every self loop. -/
def dstIdx (e : (⟨S2x1600000, .i32⟩ : BufTy).Contents (Elt F)) : (⟨S1700000, .i32⟩ : BufTy).Contents (Elt F) :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- The degree of every node: a one added at the target of every edge and self loop. -/
def degree (e : (⟨S2x1600000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (dstIdx (F := F) e))
    (broadcastInDim S1700000 ![] bcast_S_S1700000 (constant S_ .f32 0x3F800000#32))

/-- The weight of every node: the reciprocal square root of its degree where positive, zero elsewhere. -/
def invSqrtDeg (e : (⟨S2x1600000, .i32⟩ : BufTy).Contents (Elt F)) : (⟨S100000, .f32⟩ : BufTy).Contents (Elt F) :=
  select (cmpf .ogt (degree (F := F) e) (broadcastInDim S100000 ![] bcast_S_S100000 (constant S_ .f32 0x00000000#32)))
    (Host.rsqrt (degree (F := F) e))
    (broadcastInDim S100000 ![] bcast_S_S100000 (constant S_ .f32 0x00000000#32))

/-- Node indices with a negative value wrapped once around the 100000 nodes. -/
def wrapIdx (s : (⟨S1700000, .i32⟩ : BufTy).Contents (Elt F)) : (⟨S1700000, .i32⟩ : BufTy).Contents (Elt F) :=
  select (cmpi .slt s (broadcastInDim S1700000 ![] bcast_S_S1700000 (constantI S_ 32 0#32)))
    (addi s (broadcastInDim S1700000 ![] bcast_S_S1700000 (constantI S_ 32 100000#32))) s

/-- Every edge's coefficient, the product of its end nodes' weights, as a column. -/
def normCol (e : (⟨S2x1600000, .i32⟩ : BufTy).Contents (Elt F)) : (⟨S1700000x1, .f32⟩ : BufTy).Contents (Elt F) :=
  broadcastInDim S1700000x1 ![0] bcast_S1700000_S1700000x1_0
    (mulf
      (Host.gather gather_S100000_S1700000x1_S1700000_n_0_n_n_0_1_1 (invSqrtDeg (F := F) e)
        (broadcastInDim S1700000x1 ![0] bcast_S1700000_S1700000x1_0 (wrapIdx (F := F) (srcIdx (F := F) e))))
      (Host.gather gather_S100000_S1700000x1_S1700000_n_0_n_n_0_1_1 (invSqrtDeg (F := F) e)
        (broadcastInDim S1700000x1 ![0] bcast_S1700000_S1700000x1_0 (wrapIdx (F := F) (dstIdx (F := F) e)))))

/-- One convolution from the features, the source indices, the coefficients and the target indices: every edge's
    source row, scaled, added into its target row. -/
def convTail (h : (⟨S100000x128, .f32⟩ : BufTy).Contents (Elt F)) (s : (⟨S1700000, .i32⟩ : BufTy).Contents (Elt F))
    (nrm : (⟨S1700000x1, .f32⟩ : BufTy).Contents (Elt F)) (d : (⟨S1700000, .i32⟩ : BufTy).Contents (Elt F)) :
    (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 d)
    (mulf
      (Host.gather gather_S100000x128_S1700000x1_S1700000x128_1_0_n_n_0_1_1128 h
        (broadcastInDim S1700000x1 ![0] bcast_S1700000_S1700000x1_0 (wrapIdx (F := F) s)))
      (broadcastInDim S1700000x128 ![0, 1] bcast_S1700000x1_S1700000x128_0_1 nrm))

/-- One convolution of the features over the graph the edge list gives. -/
def conv (h : (⟨S100000x128, .f32⟩ : BufTy).Contents (Elt F)) (e : (⟨S2x1600000, .i32⟩ : BufTy).Contents (Elt F)) :
    (⟨S100000x128, .f32⟩ : BufTy).Contents (Elt F) :=
  convTail (F := F) h (srcIdx (F := F) e) (normCol (F := F) e) (dstIdx (F := F) e)

end Cert.KernelIdeal.Hand

end
-- ==== Proof.LibDenseOps.lean ====
/-
  General lemmas: the operations of a dense layer read at an index written with `ix1` / `ix2`, at the ideal values.

  * a vector `[a]` cast to a column `[a, 1]`, and a column `[a, 1]` broadcast over `b` columns (the two "keepdims"
    layout steps around a row reduction);
  * a plain matrix product `[a, k] × [k, b]` into a zero accumulator as the sum over `Fin k` of the products;
  * a lane sum and a lane maximum of an `[a, b]` array (the reduction over axis 1) as a sum and a fold over `Fin b`;
  * the host's maximum-reduce over axis 1 as the same fold.
  Nothing here mentions a program: the extents are variables and the dimension records are hypotheses.
-/
import Idealize.ShloMosaic.Lib.ValueLayout
import Idealize.ShloMosaic.Lib.ValueIdx
import Idealize.ShloMosaic.PureOps.Ideal.Laws

noncomputable section

namespace Cert.LibDenseOps

open Idealize.ShloMosaic Idealize.ShloMosaic.ValueIdx

variable {α : Type}

/-- An `[a]` array cast to a column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix product of an `[a, k]` by a `[k, b]` array into the zero accumulator, whose dimension record contracts
    the left operand's columns against the right operand's rows (the four coordinate facts), is at `(p, j)` the sum over
    `q` of `L (p, q) · R (q, j)`. -/
theorem matmul_zero_ix2 {a k b : ℕ} {φ₁ φ₂ : FTy} (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, b]⟩ φ₂) (p : Fin a) (j : Fin b) :
    FloatOps.matmul D prec L R (constant ⟨2, ![a, b]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- The reduced index `p` of an `[a, b]` array with lane `c` put back on axis 1 is `(p, c)`. -/
theorem lift_lane {a b : ℕ} (h : (⟨2, ![a, b]⟩ : Shape).Reduces [1] (⟨1, ![a]⟩ : Shape)) (p : Fin a)
    (c : Fin ((⟨2, ![a, b]⟩ : Shape).size 1)) : h.lift (ix1 p) c = ix2 p (⟨c.val, c.isLt⟩ : Fin b) := by
  funext ax; apply Fin.ext
  fin_cases ax <;> rfl

/-- A lane sum of an `[a, b]` array, read at row `p`: the sum over the row. -/
theorem laneSum_apply {a b : ℕ} (src : FVec Ideal ⟨2, ![a, b]⟩ .f32) (acc : BitVec 32)
    (h : (⟨2, ![a, b]⟩ : Shape).Reduces [1] (⟨1, ![a]⟩ : Shape)) (hφ : FKind.Formats .f32) (hacc : acc = FKind.add.neutral .f32 hφ) (p : Fin a) :
    multiReduction .add [1] ⟨1, ![a]⟩ src acc h hφ hacc (ix1 p) = ∑ c : Fin b, src (ix2 p c) := by
  refine (Ideal.multiReduction_add_single src acc h hφ hacc (ix1 p)).trans ?_
  exact Finset.sum_congr rfl fun c _ => congrArg src (lift_lane h p c)

/-- A lane maximum of an `[a, b]` array, read at row `p`: the fold of `max` over the row from the accumulator's value. -/
theorem laneMax_apply {a b : ℕ} (src : FVec Ideal ⟨2, ![a, b]⟩ .f32) (acc : BitVec 32)
    (h : (⟨2, ![a, b]⟩ : Shape).Reduces [1] (⟨1, ![a]⟩ : Shape)) (hφ : FKind.Formats .f32) (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun c => src (ix2 p c)) := by
  refine (Ideal.multiReduction_maximumf_single src acc h hφ hacc (ix1 p)).trans ?_
  have hf : (src ∘ h.lift (ix1 p)) = fun c : Fin b => src (ix2 p c) := funext fun c => congrArg src (lift_lane h p c)
  exact congrArg (fun f => Finset.fold max (Ideal.ofBits .f32 acc) f (Finset.univ : Finset (Fin b))) hf

/-- The host's reduce with a maximum body over axis 1 of an `[a, b]` array, read at row `p`: the same fold from the
    initial value. -/
theorem hostRowMax_apply {a b : ℕ} (x : FVec Ideal ⟨2, ![a, b]⟩ .f32) (init : (⟨0, ![]⟩ : Shape).Idx → Ideal .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (p : Fin a) :
    Host.reduce FloatOps.maximumf x init h' hu (ix1 p)
      = (Finset.univ : Finset (Fin b)).fold max (init (Shape.Idx.first hu)) (fun c => x (ix2 p c)) := by
  rw [Host.reduce_eq_fold_single FloatOps.maximumf x init h' h hu]
  have hf : (x ∘ h.lift (ix1 p)) = fun c : Fin b => x (ix2 p c) := funext fun c => congrArg x (lift_lane h p c)
  exact congrArg (fun f => Finset.fold max (init (Shape.Idx.first hu)) f (Finset.univ : Finset (Fin b))) hf

end Cert.LibDenseOps

end
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.LibColumnRow.lean ====
/-
  One-column and one-row arrays, read at an index.

  A per-row quantity (one number per row of a matrix: a node's degree factor, a row's maximum, a row's sum) is
  held as a one-column array [a, 1] and used by laying it along every row of an [a, b] matrix; a per-column
  quantity (a bias) is held as a one-row array [1, n]. A vector of length a becomes such a column either by a
  reshape (the row-major position is kept, and position p of the column is entry p) or by a broadcast along
  axis 0; a vector of length n becomes a row by a reshape or by a broadcast along axis 1. The lemmas below read
  each of these at an index (p, c), and say that the reshape and the broadcast of a vector into a column, and into
  a row, are the same array.
-/
import Idealize.ShloMosaic.Lib.Pipeline.Value
import Idealize.ShloMosaic.Lib.ValueIdx
import Idealize.ShloMosaic.Lib.ValueLayout

namespace Cert.LibColumnRow

open Idealize.ShloMosaic Idealize.ShloMosaic.ValueIdx

variable {α : Type}

/-- A column [a, 1] laid along every row of an [a, b] array reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length a reshaped into a column [a, 1] reads, at (p, u), the vector's entry p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A vector of length a broadcast along axis 0 into a column [a, 1] reads, at (p, u), the vector's entry p. -/
theorem broadcastInDim_a_a1_apply {a : ℕ} (hd : (⟨1, ![a]⟩ : Shape).BroadcastsInDim ⟨2, ![a, 1]⟩ ![0])
    (x : (⟨1, ![a]⟩ : Shape).Idx → α) (p : Fin a) (u : Fin 1) :
    broadcastInDim ⟨2, ![a, 1]⟩ ![0] hd x (ix2 p u) = x (ix1 p) := by
  refine broadcastInDim_apply ![0] hd x (ix2 p u) (ix1 p) fun ax => ?_
  match ax with
  | ⟨0, _⟩ =>
    show p.val = if a = 1 then 0 else p.val
    split
    · have := p.isLt; omega
    · rfl

/-- The reshape of a vector into a column is its broadcast along axis 0 into that column. -/
theorem shapeCast_col_eq_broadcastInDim {a : ℕ} (x : (⟨1, ![a]⟩ : Shape).Idx → α)
    (h : (⟨1, ![a]⟩ : Shape).ShapeCasts ⟨2, ![a, 1]⟩) (hd : (⟨1, ![a]⟩ : Shape).BroadcastsInDim ⟨2, ![a, 1]⟩ ![0]) :
    shapeCast ⟨2, ![a, 1]⟩ x h = broadcastInDim ⟨2, ![a, 1]⟩ ![0] hd x := by
  funext i
  obtain ⟨p, u, rfl⟩ : ∃ (p : Fin a) (u : Fin 1), i = ix2 p u := ⟨i 0, i 1, eq_ix2 i⟩
  rw [shapeCast_a_a1_apply, broadcastInDim_a_a1_apply]

/-- A vector of length n broadcast along axis 1 into a row [1, n] reads, at (u, c), the vector's entry c. -/
theorem broadcastInDim_n_1n_apply {n : ℕ} (hd : (⟨1, ![n]⟩ : Shape).BroadcastsInDim ⟨2, ![1, n]⟩ ![1])
    (x : (⟨1, ![n]⟩ : Shape).Idx → α) (u : Fin 1) (c : Fin n) :
    broadcastInDim ⟨2, ![1, n]⟩ ![1] hd x (ix2 u c) = x (ix1 c) := by
  refine broadcastInDim_apply ![1] hd x (ix2 u c) (ix1 c) fun ax => ?_
  match ax with
  | ⟨0, _⟩ =>
    show c.val = if n = 1 then 0 else c.val
    split
    · have := c.isLt; omega
    · rfl

/-- The reshape of a vector into a row is its broadcast along axis 1 into that row. -/
theorem shapeCast_row_eq_broadcastInDim {n : ℕ} (x : (⟨1, ![n]⟩ : Shape).Idx → α)
    (h : (⟨1, ![n]⟩ : Shape).ShapeCasts ⟨2, ![1, n]⟩) (hd : (⟨1, ![n]⟩ : Shape).BroadcastsInDim ⟨2, ![1, n]⟩ ![1]) :
    shapeCast ⟨2, ![1, n]⟩ x h = broadcastInDim ⟨2, ![1, n]⟩ ![1] hd x := by
  funext i
  obtain ⟨u, c, rfl⟩ : ∃ (u : Fin 1) (c : Fin n), i = ix2 u c := ⟨i 0, i 1, eq_ix2 i⟩
  rw [shapeCast_a_1a_apply, broadcastInDim_n_1n_apply]

end Cert.LibColumnRow
-- ==== Proof.LibRowLayer.lean ====
/-
  General lemmas: the row-wise layers of a graph network over the extended reals, as arrays built row by row.

  Every layer here sends an [a, n] array to an [a, m] array whose row p depends only on row p of its array operands
  (and on the whole of its small operands: a weight [k, n], bias and scale rows [1, n]):
  * `dotRow`: a row times a weight, entry j the sum over q of r q · w (q, j);
  * `biasRow`, `reluRow`: a row plus a bias row; a row clipped below at a value;
  * `normRow`: a row normalised — its mean (the sum over the row divided by d) taken off, the result scaled by the
    reciprocal square root of (the mean of its squares plus e), times a scale row, plus a shift row;
  * `byRows`: the array whose entry (p, j) is a given function of p and j.
  Then, for each layer, that the vector unit's chain of operations (casts, a row broadcast over the rows, lane sums put
  back as columns and broadcast over the lanes) and the host's chain (broadcasts along named axes, sums over axis 1
  from a zero initial value) are both that array. Nothing here mentions a program: the extents are variables and the
  shape facts are hypotheses.
-/
import Idealize.ShloMosaic.Lib.ValueLayout
import Idealize.ShloMosaic.Lib.ValueIdx
import Idealize.ShloMosaic.Lib.Pipeline.Value
import Idealize.ShloMosaic.PureOps.Ideal.Laws
import proofs.«118496_j57329223467299_1_alg».proof.Proof.LibDenseOps
import proofs.«118496_j57329223467299_1_alg».proof.Proof.LibAffine
import proofs.«118496_j57329223467299_1_alg».proof.Proof.LibColumnRow

noncomputable section

namespace Cert.LibRowLayer

open Idealize.ShloMosaic Idealize.ShloMosaic.ValueIdx

variable {a k n : ℕ}

/-- Row `p` of an [a, n] array. -/
def row (x : FVec Ideal ⟨2, ![a, n]⟩ .f32) (p : Fin a) : Fin n → Ideal .f32 := fun c => x (ix2 p c)

/-- A row times a weight: entry j is the sum over q of r q · w (q, j). -/
def dotRow (r : Fin k → Ideal .f32) (w : FVec Ideal ⟨2, ![k, n]⟩ .f32) : Fin n → Ideal .f32 :=
  fun j => ∑ q : Fin k, r q * w (ix2 q j)

/-- A row plus a bias row. -/
def biasRow (r : Fin n → Ideal .f32) (b : FVec Ideal ⟨2, ![1, n]⟩ .f32) : Fin n → Ideal .f32 :=
  fun j => r j + b (ix2 (0 : Fin 1) j)

/-- A row clipped below at `z`. -/
def reluRow (z : Ideal .f32) (r : Fin n → Ideal .f32) : Fin n → Ideal .f32 := fun j => max (r j) z

/-- The mean of a row: its sum divided by `d`. -/
def meanRow (d : Ideal .f32) (r : Fin n → Ideal .f32) : Ideal .f32 := Ideal.div (∑ c : Fin n, r c) d

/-- A row normalised: centred at its mean, scaled by the reciprocal square root of its variance plus `e`, times the
    scale row `g`, plus the shift row `b`. -/
def normRow (d e : Ideal .f32) (r : Fin n → Ideal .f32) (g b : FVec Ideal ⟨2, ![1, n]⟩ .f32) : Fin n → Ideal .f32 :=
  fun j => (r j - meanRow d r)
      * Ideal.rsqrt (Ideal.div (∑ c : Fin n, (r c - meanRow d r) * (r c - meanRow d r)) d + e)
      * g (ix2 (0 : Fin 1) j) + b (ix2 (0 : Fin 1) j)

/-- The [a, m] array whose entry (p, j) is `f p j`. -/
def byRows {m : ℕ} (f : Fin a → Fin m → Ideal .f32) : FVec Ideal ⟨2, ![a, m]⟩ .f32 := fun i => f (i 0) (i 1)

theorem byRows_ix2 {m : ℕ} (f : Fin a → Fin m → Ideal .f32) (p : Fin a) (j : Fin m) : byRows f (ix2 p j) = f p j := rfl

/-- A scalar broadcast to any shape reads the scalar everywhere. -/
theorem bcastScalar_apply {α : Type} {t : Shape} (hd : (⟨0, ![]⟩ : Shape).BroadcastsInDim t ![])
    (v : (⟨0, ![]⟩ : Shape).Idx → α) (j : t.Idx) : broadcastInDim t ![] hd v j = v ix0 :=
  broadcastInDim_apply ![] hd v j ix0 fun ax => ax.elim0

/-! ## The vector unit's chains -/

/-- A matrix-unit product of the two operands rounded to a narrower format, into a zero accumulator, is row by row
    the row times the weight. -/
theorem coreMatmul_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (hb : FTy.bf16.bits < FTy.f32.bits)
    (x : FVec Ideal ⟨2, ![a, k]⟩ .f32) (w : FVec Ideal ⟨2, ![k, n]⟩ .f32) :
    FloatOps.matmul D prec (truncf .bf16 x hb) (truncf .bf16 w hb) (constant ⟨2, ![a, n]⟩ .f32 0x00000000#32)
      = byRows fun p => dotRow (row x p) w := by
  funext i
  obtain ⟨p, j, rfl⟩ : ∃ (p : Fin a) (j : Fin n), i = ix2 p j := ⟨i 0, i 1, eq_ix2 i⟩
  exact LibAffine.coreDot_ix2 D hr hs hl0 hl1 hr0 hr1 prec (truncf .bf16 x hb) (truncf .bf16 w hb) p j

/-- An array plus a bias row broadcast over the rows, at (p, j). -/
theorem coreBias_ix2 (hb : (⟨2, ![1, n]⟩ : Shape).Broadcasts ⟨2, ![a, n]⟩)
    (x : FVec Ideal ⟨2, ![a, n]⟩ .f32) (b : FVec Ideal ⟨2, ![1, n]⟩ .f32) (p : Fin a) (j : Fin n) :
    addf x (broadcastTo ⟨2, ![a, n]⟩ b hb) (ix2 p j) = biasRow (row x p) b j := by
  rw [addf_apply, broadcastTo_1b_ab_apply]
  rfl

/-- The vector unit's bias and clip: the array plus the bias row broadcast over the rows, clipped below at `z`. -/
theorem coreBiasRelu_eq (hb : (⟨2, ![1, n]⟩ : Shape).Broadcasts ⟨2, ![a, n]⟩) (z : Ideal .f32)
    (x : FVec Ideal ⟨2, ![a, n]⟩ .f32) (b : FVec Ideal ⟨2, ![1, n]⟩ .f32) :
    maximumf (addf x (broadcastTo ⟨2, ![a, n]⟩ b hb)) (broadcast ⟨2, ![a, n]⟩ z)
      = byRows fun p => reluRow z (biasRow (row x p) b) := by
  funext i
  obtain ⟨p, j, rfl⟩ : ∃ (p : Fin a) (j : Fin n), i = ix2 p j := ⟨i 0, i 1, eq_ix2 i⟩
  rw [maximumf_apply, coreBias_ix2, broadcast_apply]
  rfl

/-- The same followed by adding a second array. -/
theorem coreBiasReluAdd_eq (hb : (⟨2, ![1, n]⟩ : Shape).Broadcasts ⟨2, ![a, n]⟩) (z : Ideal .f32)
    (x y : FVec Ideal ⟨2, ![a, n]⟩ .f32) (b : FVec Ideal ⟨2, ![1, n]⟩ .f32) :
    addf (maximumf (addf x (broadcastTo ⟨2, ![a, n]⟩ b hb)) (broadcast ⟨2, ![a, n]⟩ z)) y
      = byRows fun p j => reluRow z (biasRow (row x p) b) j + row y p j := by
  funext i
  obtain ⟨p, j, rfl⟩ : ∃ (p : Fin a) (j : Fin n), i = ix2 p j := ⟨i 0, i 1, eq_ix2 i⟩
  rw [addf_apply, maximumf_apply, coreBias_ix2, broadcast_apply]
  rfl

/-- The mean of each row as a column broadcast over the lanes: the lane sum, cast to a column, divided by `d`,
    broadcast. -/
theorem coreMean_ix2 (hred : (⟨2, ![a, n]⟩ : Shape).Reduces [1] (⟨1, ![a]⟩ : Shape)) (hφ : FKind.Formats .f32)
    (hacc : (0x00000000#32 : BitVec 32) = FKind.add.neutral .f32 hφ)
    (hcol : (⟨1, ![a]⟩ : Shape).ShapeCasts ⟨2, ![a, 1]⟩) (hcb : (⟨2, ![a, 1]⟩ : Shape).Broadcasts ⟨2, ![a, n]⟩)
    (d : Ideal .f32) (x : FVec Ideal ⟨2, ![a, n]⟩ .f32) (p : Fin a) (j : Fin n) :
    broadcastTo ⟨2, ![a, n]⟩ (divf (shapeCast ⟨2, ![a, 1]⟩ (multiReduction .add [1] ⟨1, ![a]⟩ x 0x00000000#32 hred hφ hacc) hcol)
        (broadcast ⟨2, ![a, 1]⟩ d)) hcb (ix2 p j) = meanRow d (row x p) := by
  rw [LibDenseOps.broadcastTo_a1_ab_apply, divf_apply, LibDenseOps.shapeCast_a_a1_apply, broadcast_apply]
  refine congrArg (fun s => Ideal.div s d) ?_
  exact LibDenseOps.laneSum_apply x _ hred hφ hacc p

/-- The vector unit's normalisation of each row. -/
theorem coreNorm_eq (hred : (⟨2, ![a, n]⟩ : Shape).Reduces [1] (⟨1, ![a]⟩ : Shape)) (hφ : FKind.Formats .f32)
    (hacc : (0x00000000#32 : BitVec 32) = FKind.add.neutral .f32 hφ)
    (hcol : (⟨1, ![a]⟩ : Shape).ShapeCasts ⟨2, ![a, 1]⟩) (hcb : (⟨2, ![a, 1]⟩ : Shape).Broadcasts ⟨2, ![a, n]⟩)
    (hb : (⟨2, ![1, n]⟩ : Shape).Broadcasts ⟨2, ![a, n]⟩)
    (d e : Ideal .f32) (x : FVec Ideal ⟨2, ![a, n]⟩ .f32) (g b : FVec Ideal ⟨2, ![1, n]⟩ .f32) :
    addf (mulf (mulf
        (subf x (broadcastTo ⟨2, ![a, n]⟩ (divf (shapeCast ⟨2, ![a, 1]⟩ (multiReduction .add [1] ⟨1, ![a]⟩ x 0x00000000#32 hred hφ hacc) hcol) (broadcast ⟨2, ![a, 1]⟩ d)) hcb))
        (broadcastTo ⟨2, ![a, n]⟩ (rsqrt (addf (divf (shapeCast ⟨2, ![a, 1]⟩ (multiReduction .add [1] ⟨1, ![a]⟩
            (mulf (subf x (broadcastTo ⟨2, ![a, n]⟩ (divf (shapeCast ⟨2, ![a, 1]⟩ (multiReduction .add [1] ⟨1, ![a]⟩ x 0x00000000#32 hred hφ hacc) hcol) (broadcast ⟨2, ![a, 1]⟩ d)) hcb))
                  (subf x (broadcastTo ⟨2, ![a, n]⟩ (divf (shapeCast ⟨2, ![a, 1]⟩ (multiReduction .add [1] ⟨1, ![a]⟩ x 0x00000000#32 hred hφ hacc) hcol) (broadcast ⟨2, ![a, 1]⟩ d)) hcb)))
            0x00000000#32 hred hφ hacc) hcol) (broadcast ⟨2, ![a, 1]⟩ d)) (broadcast ⟨2, ![a, 1]⟩ e))) hcb))
        (broadcastTo ⟨2, ![a, n]⟩ g hb)) (broadcastTo ⟨2, ![a, n]⟩ b hb)
      = byRows fun p => normRow d e (row x p) g b := by
  funext i
  obtain ⟨p, j, rfl⟩ : ∃ (p : Fin a) (j : Fin n), i = ix2 p j := ⟨i 0, i 1, eq_ix2 i⟩
  rw [addf_apply, mulf_apply, mulf_apply, subf_apply, coreMean_ix2, broadcastTo_1b_ab_apply, broadcastTo_1b_ab_apply,
    LibDenseOps.broadcastTo_a1_ab_apply]
  show (x (ix2 p j) - meanRow d (row x p)) * FloatOps.rsqrt (_ + e) * _ + _ = _
  rw [divf_apply, LibDenseOps.shapeCast_a_a1_apply, broadcast_apply, LibDenseOps.laneSum_apply _ _ hred hφ hacc p]
  have hs : (∑ c : Fin n, mulf (subf x (broadcastTo ⟨2, ![a, n]⟩ (divf (shapeCast ⟨2, ![a, 1]⟩ (multiReduction .add [1] ⟨1, ![a]⟩ x 0x00000000#32 hred hφ hacc) hcol) (broadcast ⟨2, ![a, 1]⟩ d)) hcb))
        (subf x (broadcastTo ⟨2, ![a, n]⟩ (divf (shapeCast ⟨2, ![a, 1]⟩ (multiReduction .add [1] ⟨1, ![a]⟩ x 0x00000000#32 hred hφ hacc) hcol) (broadcast ⟨2, ![a, 1]⟩ d)) hcb)) (ix2 p c))
      = ∑ c : Fin n, (row x p c - meanRow d (row x p)) * (row x p c - meanRow d (row x p)) :=
    Finset.sum_congr rfl fun c _ => by
      rw [mulf_apply, subf_apply, coreMean_ix2]
      rfl
  rw [hs]
  rfl

end Cert.LibRowLayer

end
-- ==== Proof.Spec.lean ====
/-
  The network the two programs compute, as one function of the twelve arguments: three graph convolutions of
  [100000, 128] node features, each a product with a [128, 128] weight followed by the convolution over the edges,
  with a bias row and a clip at zero after the first two, a row normalisation between the first and the second, the
  first layer's output added back after the second, and a bias row and a row normalisation at the end.
-/
import proofs.«118496_j57329223467299_1_alg».proof.Proof.HostChain
import proofs.«118496_j57329223467299_1_alg».proof.Proof.LibRowLayer

noncomputable section

namespace Cert.KernelIdeal.Hand

open Cert.KernelIdeal Cert.KernelIdeal.Gen Idealize.ShloMosaic Idealize.ShloMosaic.ValueIdx Cert.LibRowLayer

/-- The three scalars of the layers: zero, the row length 128, and the normalisation's offset. -/
abbrev zero32 : Ideal .f32 := Ideal.ofBits .f32 0x00000000#32
abbrev len128 : Ideal .f32 := Ideal.ofBits .f32 0x43000000#32
abbrev eps32 : Ideal .f32 := Ideal.ofBits .f32 0x3727C5AC#32

/-- Features times a weight. -/
def mm (x : FVec Ideal S100000x128 .f32) (w : FVec Ideal S128x128 .f32) : FVec Ideal S100000x128 .f32 :=
  byRows fun p => dotRow (row x p) w

/-- A bias row added to every row, clipped below at zero. -/
def biasRelu (x : FVec Ideal S100000x128 .f32) (b : FVec Ideal S1x128 .f32) : FVec Ideal S100000x128 .f32 :=
  byRows fun p => reluRow zero32 (biasRow (row x p) b)

/-- The same, then a second array added. -/
def biasReluAdd (x : FVec Ideal S100000x128 .f32) (b : FVec Ideal S1x128 .f32) (y : FVec Ideal S100000x128 .f32) :
    FVec Ideal S100000x128 .f32 :=
  byRows fun p j => reluRow zero32 (biasRow (row x p) b) j + row y p j

/-- Every row normalised, scaled by the row g and shifted by the row b. -/
def norm (x : FVec Ideal S100000x128 .f32) (g b : FVec Ideal S1x128 .f32) : FVec Ideal S100000x128 .f32 :=
  byRows fun p => normRow len128 eps32 (row x p) g b

/-- A bias row added to every row, then every row normalised. -/
def biasNorm (x : FVec Ideal S100000x128 .f32) (bias g b : FVec Ideal S1x128 .f32) : FVec Ideal S100000x128 .f32 :=
  byRows fun p => normRow len128 eps32 (biasRow (row x p) bias) g b

/-- A vector of 128 entries as a row. -/
def rowOf (v : FVec Ideal S128 .f32) : FVec Ideal S1x128 .f32 := shapeCast S1x128 v shapeCasts_S128_S1x128

/-- The first layer's output. -/
def layer1 (x : FVec Ideal S100000x128 .f32) (e : IVec S2x1600000 32) (w0 : FVec Ideal S128x128 .f32) (b0 : FVec Ideal S128 .f32) :
    FVec Ideal S100000x128 .f32 :=
  biasRelu (conv (F := Ideal) (mm x w0) e) (rowOf b0)

/-- The second layer's output, the first layer's added back. -/
def layer2 (x : FVec Ideal S100000x128 .f32) (e : IVec S2x1600000 32) (w0 : FVec Ideal S128x128 .f32) (b0 : FVec Ideal S128 .f32)
    (w1 : FVec Ideal S128x128 .f32) (b1 lg lb : FVec Ideal S128 .f32) : FVec Ideal S100000x128 .f32 :=
  biasReluAdd (conv (F := Ideal) (mm (norm (layer1 x e w0 b0) (rowOf lg) (rowOf lb)) w1) e) (rowOf b1) (layer1 x e w0 b0)

/-- The whole network. -/
def net (x : FVec Ideal S100000x128 .f32) (e : IVec S2x1600000 32) (w0 : FVec Ideal S128x128 .f32) (b0 : FVec Ideal S128 .f32)
    (w1 : FVec Ideal S128x128 .f32) (b1 : FVec Ideal S128 .f32) (w2 : FVec Ideal S128x128 .f32) (b2 lg lb fg fb : FVec Ideal S128 .f32) :
    FVec Ideal S100000x128 .f32 :=
  biasNorm (conv (F := Ideal) (mm (layer2 x e w0 b0 w1 b1 lg lb) w2) e) (rowOf b2) (rowOf fg) (rowOf fb)

end Cert.KernelIdeal.Hand

end
-- ==== Proof.Walk.lean ====
/- Which buffers each segment of the program leaves alone. A launch writes its result array only (its operand arrays are
  staged and never written back; every other buffer is not touched); a stretch of host operations writes its
  operations' result buffers only. -/
import proofs.«118496_j57329223467299_1_alg».proof.Proof.Gen.KernelIdeal.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Launch 0 changes no buffer but its result. -/
theorem keepR0 (c : Dev nD) (b : Ref sig .tc) (hb : b ≠ main_v38) :
    W4 m ρ c (Proc.devRef .tc b) = W3 m ρ c (Proc.devRef .tc b) := by
  by_cases h0 : main_arg0 = b
  · subst h0; exact (W4_arr m ρ c 0).trans (((dat0 (V3 m ρ) c).arrAt_in 0 rfl _).trans (A_eq0 (V3 m ρ) c 0))
  by_cases h1 : main_arg2 = b
  · subst h1; exact (W4_arr m ρ c 1).trans (((dat0 (V3 m ρ) c).arrAt_in 1 rfl _).trans (A_eq0 (V3 m ρ) c 1))
  refine W4_of_ne m ρ c b ?_
  intro w
  match w with
  | ⟨0, _⟩ => exact h0
  | ⟨1, _⟩ => exact h1
  | ⟨2, _⟩ => exact fun e => hb e.symm
  | ⟨n + 3, h⟩ => exact absurd h (by omega)

/-- The buffers the host stretch `hostOps1` writes. -/
abbrev H1W : List (Ref sig .tc) := [main_c_6, main_v39, main_v40, main_c_7, main_v41, main_v42, main_v43, main_v44, main_v45, main_v46, main_v47, main_cst_8, main_v48, main_v49, main_v50]
theorem H1_writes : (hostOps1 : List (HloOp τ sig (Elt F))).Forall fun op => op.writes ⊆ (H1W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The stretch leaves every other buffer as it found it. -/
theorem keepH1 (c : Dev nD) (b : Ref sig .tc) (hb : b ∉ H1W) :
    W5 m ρ c (Proc.devRef .tc b) = W4 m ρ c (Proc.devRef .tc b) :=
  StableHlo.after_of_writes_sub hostOps1 _ H1_writes hb

/-- Launch 1 changes no buffer but its result. -/
theorem keepR1 (c : Dev nD) (b : Ref sig .tc) (hb : b ≠ main_v51) :
    W6 m ρ c (Proc.devRef .tc b) = W5 m ρ c (Proc.devRef .tc b) := by
  by_cases h0 : main_v50 = b
  · subst h0; exact (W6_arr m ρ c 0).trans (((dat1 (V5 m ρ) c).arrAt_in 0 rfl _).trans (A_eq1 (V5 m ρ) c 0))
  by_cases h1 : main_v31 = b
  · subst h1; exact (W6_arr m ρ c 1).trans (((dat1 (V5 m ρ) c).arrAt_in 1 rfl _).trans (A_eq1 (V5 m ρ) c 1))
  refine W6_of_ne m ρ c b ?_
  intro w
  match w with
  | ⟨0, _⟩ => exact h0
  | ⟨1, _⟩ => exact h1
  | ⟨2, _⟩ => exact fun e => hb e.symm
  | ⟨n + 3, h⟩ => exact absurd h (by omega)

/-- Launch 2 changes no buffer but its result. -/
theorem keepR2 (c : Dev nD) (b : Ref sig .tc) (hb : b ≠ main_v52) :
    W7 m ρ c (Proc.devRef .tc b) = W6 m ρ c (Proc.devRef .tc b) := by
  by_cases h0 : main_v51 = b
  · subst h0; exact (W7_arr m ρ c 0).trans (((dat2 (V6 m ρ) c).arrAt_in 0 rfl _).trans (A_eq2 (V6 m ρ) c 0))
  by_cases h1 : main_v34 = b
  · subst h1; exact (W7_arr m ρ c 1).trans (((dat2 (V6 m ρ) c).arrAt_in 1 rfl _).trans (A_eq2 (V6 m ρ) c 1))
  by_cases h2 : main_v35 = b
  · subst h2; exact (W7_arr m ρ c 2).trans (((dat2 (V6 m ρ) c).arrAt_in 2 rfl _).trans (A_eq2 (V6 m ρ) c 2))
  refine W7_of_ne m ρ c b ?_
  intro w
  match w with
  | ⟨0, _⟩ => exact h0
  | ⟨1, _⟩ => exact h1
  | ⟨2, _⟩ => exact h2
  | ⟨3, _⟩ => exact fun e => hb e.symm
  | ⟨n + 4, h⟩ => exact absurd h (by omega)

/-- Launch 3 changes no buffer but its result. -/
theorem keepR3 (c : Dev nD) (b : Ref sig .tc) (hb : b ≠ main_v53) :
    W8 m ρ c (Proc.devRef .tc b) = W7 m ρ c (Proc.devRef .tc b) := by
  by_cases h0 : main_v52 = b
  · subst h0; exact (W8_arr m ρ c 0).trans (((dat3 (V7 m ρ) c).arrAt_in 0 rfl _).trans (A_eq3 (V7 m ρ) c 0))
  by_cases h1 : main_arg4 = b
  · subst h1; exact (W8_arr m ρ c 1).trans (((dat3 (V7 m ρ) c).arrAt_in 1 rfl _).trans (A_eq3 (V7 m ρ) c 1))
  refine W8_of_ne m ρ c b ?_
  intro w
  match w with
  | ⟨0, _⟩ => exact h0
  | ⟨1, _⟩ => exact h1
  | ⟨2, _⟩ => exact fun e => hb e.symm
  | ⟨n + 3, h⟩ => exact absurd h (by omega)

/-- The buffers the host stretch `hostOps4` writes. -/
abbrev H4W : List (Ref sig .tc) := [main_c_9, main_v54, main_v55, main_c_10, main_v56, main_v57, main_v58, main_v59, main_v60, main_v61, main_v62, main_cst_11, main_v63, main_v64, main_v65]
theorem H4_writes : (hostOps4 : List (HloOp τ sig (Elt F))).Forall fun op => op.writes ⊆ (H4W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The stretch leaves every other buffer as it found it. -/
theorem keepH4 (c : Dev nD) (b : Ref sig .tc) (hb : b ∉ H4W) :
    W9 m ρ c (Proc.devRef .tc b) = W8 m ρ c (Proc.devRef .tc b) :=
  StableHlo.after_of_writes_sub hostOps4 _ H4_writes hb

/-- Launch 4 changes no buffer but its result. -/
theorem keepR4 (c : Dev nD) (b : Ref sig .tc) (hb : b ≠ main_v66) :
    W10 m ρ c (Proc.devRef .tc b) = W9 m ρ c (Proc.devRef .tc b) := by
  by_cases h0 : main_v65 = b
  · subst h0; exact (W10_arr m ρ c 0).trans (((dat4 (V9 m ρ) c).arrAt_in 0 rfl _).trans (A_eq4 (V9 m ρ) c 0))
  by_cases h1 : main_v32 = b
  · subst h1; exact (W10_arr m ρ c 1).trans (((dat4 (V9 m ρ) c).arrAt_in 1 rfl _).trans (A_eq4 (V9 m ρ) c 1))
  by_cases h2 : main_v51 = b
  · subst h2; exact (W10_arr m ρ c 2).trans (((dat4 (V9 m ρ) c).arrAt_in 2 rfl _).trans (A_eq4 (V9 m ρ) c 2))
  refine W10_of_ne m ρ c b ?_
  intro w
  match w with
  | ⟨0, _⟩ => exact h0
  | ⟨1, _⟩ => exact h1
  | ⟨2, _⟩ => exact h2
  | ⟨3, _⟩ => exact fun e => hb e.symm
  | ⟨n + 4, h⟩ => exact absurd h (by omega)

/-- Launch 5 changes no buffer but its result. -/
theorem keepR5 (c : Dev nD) (b : Ref sig .tc) (hb : b ≠ main_v67) :
    W11 m ρ c (Proc.devRef .tc b) = W10 m ρ c (Proc.devRef .tc b) := by
  by_cases h0 : main_v66 = b
  · subst h0; exact (W11_arr m ρ c 0).trans (((dat5 (V10 m ρ) c).arrAt_in 0 rfl _).trans (A_eq5 (V10 m ρ) c 0))
  by_cases h1 : main_arg6 = b
  · subst h1; exact (W11_arr m ρ c 1).trans (((dat5 (V10 m ρ) c).arrAt_in 1 rfl _).trans (A_eq5 (V10 m ρ) c 1))
  refine W11_of_ne m ρ c b ?_
  intro w
  match w with
  | ⟨0, _⟩ => exact h0
  | ⟨1, _⟩ => exact h1
  | ⟨2, _⟩ => exact fun e => hb e.symm
  | ⟨n + 3, h⟩ => exact absurd h (by omega)

/-- The buffers the host stretch `hostOps6` writes. -/
abbrev H6W : List (Ref sig .tc) := [main_c_12, main_v68, main_v69, main_c_13, main_v70, main_v71, main_v72, main_v73, main_v74, main_v75, main_v76, main_cst_14, main_v77, main_v78, main_v79]
theorem H6_writes : (hostOps6 : List (HloOp τ sig (Elt F))).Forall fun op => op.writes ⊆ (H6W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The stretch leaves every other buffer as it found it. -/
theorem keepH6 (c : Dev nD) (b : Ref sig .tc) (hb : b ∉ H6W) :
    W12 m ρ c (Proc.devRef .tc b) = W11 m ρ c (Proc.devRef .tc b) :=
  StableHlo.after_of_writes_sub hostOps6 _ H6_writes hb

/-- Launch 6 changes no buffer but its result. -/
theorem keepR6 (c : Dev nD) (b : Ref sig .tc) (hb : b ≠ main_v80) :
    W13 m ρ c (Proc.devRef .tc b) = W12 m ρ c (Proc.devRef .tc b) := by
  by_cases h0 : main_v79 = b
  · subst h0; exact (W13_arr m ρ c 0).trans (((dat6 (V12 m ρ) c).arrAt_in 0 rfl _).trans (A_eq6 (V12 m ρ) c 0))
  by_cases h1 : main_v33 = b
  · subst h1; exact (W13_arr m ρ c 1).trans (((dat6 (V12 m ρ) c).arrAt_in 1 rfl _).trans (A_eq6 (V12 m ρ) c 1))
  by_cases h2 : main_v36 = b
  · subst h2; exact (W13_arr m ρ c 2).trans (((dat6 (V12 m ρ) c).arrAt_in 2 rfl _).trans (A_eq6 (V12 m ρ) c 2))
  by_cases h3 : main_v37 = b
  · subst h3; exact (W13_arr m ρ c 3).trans (((dat6 (V12 m ρ) c).arrAt_in 3 rfl _).trans (A_eq6 (V12 m ρ) c 3))
  refine W13_of_ne m ρ c b ?_
  intro w
  match w with
  | ⟨0, _⟩ => exact h0
  | ⟨1, _⟩ => exact h1
  | ⟨2, _⟩ => exact h2
  | ⟨3, _⟩ => exact h3
  | ⟨4, _⟩ => exact fun e => hb e.symm
  | ⟨n + 5, h⟩ => exact absurd h (by omega)

end Cert.KernelIdeal.Hand

end
-- ==== Proof.HostReads.lean ====
/- What the stretches of host operations leave in the buffers the launches read, from any contents W they start from.
  The first three stretches (before the first launch) compute, from the edge list, the source and target indices and the
  edges' coefficients, and lay the seven bias, scale and shift vectors out as rows; each later stretch is one convolution
  over the edges of the features the launch before it wrote. -/
import proofs.«118496_j57329223467299_1_alg».proof.Proof.Gen.KernelIdeal.Launch
import proofs.«118496_j57329223467299_1_alg».proof.Proof.HostChain
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-- A vector of 128 entries as a row, at any float values. -/
def rowOfF (v : (⟨S128, .f32⟩ : BufTy).Contents (Elt F)) : (⟨S1x128, .f32⟩ : BufTy).Contents (Elt F) :=
  shapeCast S1x128 v shapeCasts_S128_S1x128

set_option maxHeartbeats 16000000 in
theorem H0_v5 (W : Valuation τ sig (Elt F)) :
    StableHlo.after hostOps0_2 (StableHlo.after hostOps0_1 (StableHlo.after hostOps0 W)) (Proc.devRef .tc main_v5)
      = srcIdx (F := F) (W (Proc.devRef .tc main_arg1)) := by
  after_results_simp <;> rfl

set_option maxHeartbeats 16000000 in
theorem H0_v6 (W : Valuation τ sig (Elt F)) :
    StableHlo.after hostOps0_2 (StableHlo.after hostOps0_1 (StableHlo.after hostOps0 W)) (Proc.devRef .tc main_v6)
      = dstIdx (F := F) (W (Proc.devRef .tc main_arg1)) := by
  after_results_simp <;> rfl

set_option maxHeartbeats 16000000 in
theorem H0_v30 (W : Valuation τ sig (Elt F)) :
    StableHlo.after hostOps0_2 (StableHlo.after hostOps0_1 (StableHlo.after hostOps0 W)) (Proc.devRef .tc main_v30)
      = normCol (F := F) (W (Proc.devRef .tc main_arg1)) := by
  after_results_simp <;> rfl

set_option maxHeartbeats 16000000 in
theorem H0_v31 (W : Valuation τ sig (Elt F)) :
    StableHlo.after hostOps0_2 (StableHlo.after hostOps0_1 (StableHlo.after hostOps0 W)) (Proc.devRef .tc main_v31)
      = rowOfF (F := F) (W (Proc.devRef .tc main_arg3)) := by
  after_results_simp <;> rfl

set_option maxHeartbeats 16000000 in
theorem H0_v32 (W : Valuation τ sig (Elt F)) :
    StableHlo.after hostOps0_2 (StableHlo.after hostOps0_1 (StableHlo.after hostOps0 W)) (Proc.devRef .tc main_v32)
      = rowOfF (F := F) (W (Proc.devRef .tc main_arg5)) := by
  after_results_simp <;> rfl

set_option maxHeartbeats 16000000 in
theorem H0_v33 (W : Valuation τ sig (Elt F)) :
    StableHlo.after hostOps0_2 (StableHlo.after hostOps0_1 (StableHlo.after hostOps0 W)) (Proc.devRef .tc main_v33)
      = rowOfF (F := F) (W (Proc.devRef .tc main_arg7)) := by
  after_results_simp <;> rfl

set_option maxHeartbeats 16000000 in
theorem H0_v34 (W : Valuation τ sig (Elt F)) :
    StableHlo.after hostOps0_2 (StableHlo.after hostOps0_1 (StableHlo.after hostOps0 W)) (Proc.devRef .tc main_v34)
      = rowOfF (F := F) (W (Proc.devRef .tc main_arg8)) := by
  after_results_simp <;> rfl

set_option maxHeartbeats 16000000 in
theorem H0_v35 (W : Valuation τ sig (Elt F)) :
    StableHlo.after hostOps0_2 (StableHlo.after hostOps0_1 (StableHlo.after hostOps0 W)) (Proc.devRef .tc main_v35)
      = rowOfF (F := F) (W (Proc.devRef .tc main_arg9)) := by
  after_results_simp <;> rfl

set_option maxHeartbeats 16000000 in
theorem H0_v36 (W : Valuation τ sig (Elt F)) :
    StableHlo.after hostOps0_2 (StableHlo.after hostOps0_1 (StableHlo.after hostOps0 W)) (Proc.devRef .tc main_v36)
      = rowOfF (F := F) (W (Proc.devRef .tc main_arg10)) := by
  after_results_simp <;> rfl

set_option maxHeartbeats 16000000 in
theorem H0_v37 (W : Valuation τ sig (Elt F)) :
    StableHlo.after hostOps0_2 (StableHlo.after hostOps0_1 (StableHlo.after hostOps0 W)) (Proc.devRef .tc main_v37)
      = rowOfF (F := F) (W (Proc.devRef .tc main_arg11)) := by
  after_results_simp <;> rfl

set_option maxHeartbeats 16000000 in
theorem H0_arg0 (W : Valuation τ sig (Elt F)) :
    StableHlo.after hostOps0_2 (StableHlo.after hostOps0_1 (StableHlo.after hostOps0 W)) (Proc.devRef .tc main_arg0)
      = id (W (Proc.devRef .tc main_arg0)) := by
  after_results_simp <;> rfl

set_option maxHeartbeats 16000000 in
theorem H0_arg2 (W : Valuation τ sig (Elt F)) :
    StableHlo.after hostOps0_2 (StableHlo.after hostOps0_1 (StableHlo.after hostOps0 W)) (Proc.devRef .tc main_arg2)
      = id (W (Proc.devRef .tc main_arg2)) := by
  after_results_simp <;> rfl

set_option maxHeartbeats 16000000 in
theorem H0_arg4 (W : Valuation τ sig (Elt F)) :
    StableHlo.after hostOps0_2 (StableHlo.after hostOps0_1 (StableHlo.after hostOps0 W)) (Proc.devRef .tc main_arg4)
      = id (W (Proc.devRef .tc main_arg4)) := by
  after_results_simp <;> rfl

set_option maxHeartbeats 16000000 in
theorem H0_arg6 (W : Valuation τ sig (Elt F)) :
    StableHlo.after hostOps0_2 (StableHlo.after hostOps0_1 (StableHlo.after hostOps0 W)) (Proc.devRef .tc main_arg6)
      = id (W (Proc.devRef .tc main_arg6)) := by
  after_results_simp <;> rfl

set_option maxHeartbeats 16000000 in
theorem hostOps1_v50 (W : Valuation τ sig (Elt F)) :
    StableHlo.after hostOps1 W (Proc.devRef .tc main_v50)
      = convTail (F := F) (W (Proc.devRef .tc main_v38)) (W (Proc.devRef .tc main_v5)) (W (Proc.devRef .tc main_v30)) (W (Proc.devRef .tc main_v6)) := by
  after_results_simp <;> rfl

set_option maxHeartbeats 16000000 in
theorem hostOps4_v65 (W : Valuation τ sig (Elt F)) :
    StableHlo.after hostOps4 W (Proc.devRef .tc main_v65)
      = convTail (F := F) (W (Proc.devRef .tc main_v53)) (W (Proc.devRef .tc main_v5)) (W (Proc.devRef .tc main_v30)) (W (Proc.devRef .tc main_v6)) := by
  after_results_simp <;> rfl

set_option maxHeartbeats 16000000 in
theorem hostOps6_v79 (W : Valuation τ sig (Elt F)) :
    StableHlo.after hostOps6 W (Proc.devRef .tc main_v79)
      = convTail (F := F) (W (Proc.devRef .tc main_v67)) (W (Proc.devRef .tc main_v5)) (W (Proc.devRef .tc main_v30)) (W (Proc.devRef .tc main_v6)) := by
  after_results_simp <;> rfl

end Cert.KernelIdeal.Hand

end
-- ==== Proof.Blocks.lean ====
/-
  A small fact shared by the seven launches: the rectangle every body loads and stores through starts at the origin.
-/
import proofs.«118496_j57329223467299_1_alg».proof.Proof.Gen.KernelIdeal.Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- The zero offsets of a whole-block access. -/
theorem hz2 : (![0, 0] : Fin 2 → Nat) = fun _ => 0 := funext fun a => by fin_cases a <;> rfl

end Cert.KernelIdeal.Hand

end
-- ==== Proof.DotFacts.lean ====
/-
  The matrix unit's product of a [5000, 128] block by a [128, 128] weight contracts the block's columns against the
  weight's rows: where the dimension record puts an output index and a contraction index in the two operands.
-/
import proofs.«118496_j57329223467299_1_alg».proof.Proof.Gen.KernelIdeal.Frame
import Idealize.ShloMosaic.Lib.Pipeline.Value
import Idealize.ShloMosaic.Lib.ValueIdx
import proofs.«118496_j57329223467299_1_alg».proof.Proof.Spec
set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.LibRowLayer

/-- The left operand is read at the output's row. -/
theorem dotL0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The left operand is read at the contraction index on its columns. -/
theorem dotL1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- The right operand is read at the contraction index on its rows. -/
theorem dotR0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- The right operand is read at the output's column. -/
theorem dotR1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a block rounded to the narrower format by the weight rounded likewise, into a zero accumulator, is
    row by row the row times the weight. -/
theorem blockMatmul_eq (x0 : Vec Ideal S5000x128 .f32) (x1 : Vec Ideal S128x128 .f32) :
    matmul dot_S5000x128_S128x128_S5000x128_1_0_0_1_n_n none (truncf .bf16 x0 bitsLt_bf16_f32) (truncf .bf16 x1 bitsLt_bf16_f32)
        (constant S5000x128 .f32 0x00000000#32)
      = byRows fun p => dotRow (row x0 p) x1 :=
  coreMatmul_eq dot_S5000x128_S128x128_S5000x128_1_0_0_1_n_n rfl rfl dotL0 dotL1 dotR0 dotR1 none bitsLt_bf16_f32 x0 x1

end Cert.KernelIdeal.Hand

end
-- ==== Proof.Region0.lean ====
/-
  The first launch: a [100000, 128] array times a [128, 128] weight on the matrix unit, in twenty blocks of 5000 rows
  (both operands rounded to the narrower format on the way in, which changes nothing at the ideal values). Block t of
  the product is the product of block t, and the product is row by row, so the whole result is the product of the whole
  array.
-/
import proofs.«118496_j57329223467299_1_alg».proof.Proof.Gen.KernelIdeal.Frame
import Idealize.ShloMosaic.Lib.Pipeline.Value
import Idealize.ShloMosaic.Lib.ValueIdx
import proofs.«118496_j57329223467299_1_alg».proof.Proof.Spec
import proofs.«118496_j57329223467299_1_alg».proof.Proof.Blocks
import proofs.«118496_j57329223467299_1_alg».proof.Proof.DotFacts
set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.LibRowLayer

variable (V : (c : Dev nD) → (b : Ref sig .tc) → Buf (Elt Ideal) ((c : Thread nD τ).loc b))

/-- The body's stored value is the layer of its loaded blocks. -/
theorem pay0_eq (x0 : Vec Ideal S5000x128 .f32) (x1 : Vec Ideal S128x128 .f32) :
    k0_pay1 x0 x1 = byRows fun p => dotRow (row x0 p) x1 := by
  unfold k0_pay1
  exact blockMatmul_eq x0 x1

/-- Where the launch's blocks sit, decided over its twenty points: the big arrays and the result move down by one block
    of rows per point, the small operands stay. -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the layer of the arrays the launch finds. -/
theorem flushed0_eq (c : Dev nD) (t : Fin cfg0.N) :
    (dat0 V c).flushed 2 t = ((cfg0.win 2).blk t).view.read (Elt Ideal) (mm (V c main_arg0) (V c main_arg2)) := by
  show (cfg0.win 2).cut (grid0.coords t) ((dat0 V c).after 2 t) = _
  rw [after0_2]
  unfold out0_2
  rw [View.canon_unit_zero hz2]
  simp only [View.ld_unit_zero (S := S5000x128) hz2, View.ld_unit_zero (S := S128x128) hz2]
  rw [pay0_eq]
  obtain ⟨e0, e1, e2, e3, e4, e5⟩ := idx0 t
  funext j
  have hj0 : (j 0).val < 5000 := (j 0).isLt
  have hj1 : (j 1).val < 128 := (j 1).isLt
  show dotRow (row (iblk0 V c 0 t) (j 0)) (iblk0 V c 1 t) (j 1)
      = dotRow (row (V c main_arg0) ((((cfg0.win 2).blk t).view.emb j) 0)) (V c main_arg2) ((((cfg0.win 2).blk t).view.emb j) 1)
  have hrow0 : row (iblk0 V c 0 t) (j 0) = row (V c main_arg0) ((((cfg0.win 2).blk t).view.emb j) 0) := by
    funext k
    show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hsmall1 : (iblk0 V c 1 t : Vec Ideal S128x128 .f32) = V c main_arg2 := by
    funext y
    show V c main_arg2 (((cfg0.win 1).blk t).view.emb y) = V c main_arg2 y
    refine congrArg (V c main_arg2) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  have hcol : (((cfg0.win 2).blk t).view.emb j) 1 = j 1 := Fin.ext (by
    show win0_2.index t (1 : Fin 2) * 128 + 1 * (j 1).val = (j 1).val; omega)
  rw [hrow0, hsmall1, hcol]

/-- Every row of the result lies in some point's block: row r in the block of point r / 5000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e0, e1, e2, e3, e4, e5⟩ := idx0 t
  refine ⟨t, flush0_2 t, ?_⟩
  show i ∈ ((View.whole main_v38).slice (win0_2.rect t)).set
  rw [View.set_slice_whole, Rect.mem_set_unit]
  intro a
  have ht : t.val = (i 0).val / 5000 := rfl
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the launch is the layer of the arrays the launch finds. -/
theorem final0 (c : Dev nD) : (dat0 V c).arrAt 2 cfg0.N = mm (V c main_arg0) (V c main_arg2) :=
  (dat0 V c).arrAt_eq_of_cover 2 _ (fun t _ => flushed0_eq V c t) (cover0)

end Cert.KernelIdeal.Hand

end
-- ==== Proof.Region1.lean ====
/-
  The second launch: a bias row added to every row of a [100000, 128] array and the result clipped below at zero, in
  twenty blocks of 5000 rows. Block t of the result is the layer of block t of the array, and the layer is row by row,
  so the whole result is the layer of the whole array.
-/
import proofs.«118496_j57329223467299_1_alg».proof.Proof.Gen.KernelIdeal.Frame
import Idealize.ShloMosaic.Lib.Pipeline.Value
import Idealize.ShloMosaic.Lib.ValueIdx
import proofs.«118496_j57329223467299_1_alg».proof.Proof.Spec
import proofs.«118496_j57329223467299_1_alg».proof.Proof.Blocks
set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.LibRowLayer

variable (V : (c : Dev nD) → (b : Ref sig .tc) → Buf (Elt Ideal) ((c : Thread nD τ).loc b))

/-- The body's stored value is the layer of its loaded block. -/
theorem pay1_eq (x0 : Vec Ideal S5000x128 .f32) (x1 : Vec Ideal S1x128 .f32) :
    k1_pay1 x0 x1 = byRows fun p => reluRow zero32 (biasRow (row x0 p) x1) := by
  unfold k1_pay1
  rw [shapeCast_self, shapeCast_self]
  exact coreBiasRelu_eq broadcasts_S1x128_S5000x128 _ x0 x1

/-- Where the launch's blocks sit, decided over its twenty points: the array and the result move down by one block of
    rows per point, the bias row stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the layer of the arrays the launch finds. -/
theorem flushed1_eq (c : Dev nD) (t : Fin cfg1.N) :
    (dat1 V c).flushed 2 t = ((cfg1.win 2).blk t).view.read (Elt Ideal) (biasRelu (V c main_v50) (V c main_v31)) := by
  show (cfg1.win 2).cut (grid1.coords t) ((dat1 V c).after 2 t) = _
  rw [after1_2]
  unfold out1_2
  rw [View.canon_unit_zero hz2]
  simp only [View.ld_unit_zero (S := S5000x128) hz2, View.ld_unit_zero (S := S1x128) hz2]
  rw [pay1_eq]
  obtain ⟨e0, e1, e2, e3, e4, e5⟩ := idx1 t
  funext j
  have hj0 : (j 0).val < 5000 := (j 0).isLt
  have hj1 : (j 1).val < 128 := (j 1).isLt
  show reluRow _ (biasRow (row (iblk1 V c 0 t) (j 0)) (iblk1 V c 1 t)) (j 1)
      = reluRow _ (biasRow (row (V c main_v50) ((((cfg1.win 2).blk t).view.emb j) 0)) (V c main_v31)) ((((cfg1.win 2).blk t).view.emb j) 1)
  have hrow : row (iblk1 V c 0 t) (j 0) = row (V c main_v50) ((((cfg1.win 2).blk t).view.emb j) 0) := by
    funext k
    show V c main_v50 (((cfg1.win 0).blk t).view.emb (ix2 (j 0) k)) = V c main_v50 (ix2 ((((cfg1.win 2).blk t).view.emb j) 0) k)
    refine congrArg (V c main_v50) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have hsmall : (iblk1 V c 1 t : Vec Ideal S1x128 .f32) = V c main_v31 := by
    funext y
    show V c main_v31 (((cfg1.win 1).blk t).view.emb y) = V c main_v31 y
    refine congrArg (V c main_v31) (funext fun a => Fin.ext ?_)
    match a with
    | ⟨0, _⟩ => show win1_1.index t (0 : Fin 2) * 1 + 1 * (y 0).val = (y 0).val; omega
    | ⟨1, _⟩ => show win1_1.index t (1 : Fin 2) * 128 + 1 * (y 1).val = (y 1).val; omega
  have hcol : (((cfg1.win 2).blk t).view.emb j) 1 = j 1 := Fin.ext (by
    show win1_2.index t (1 : Fin 2) * 128 + 1 * (j 1).val = (j 1).val; omega)
  rw [hrow, hsmall, hcol]

/-- Every row of the result lies in some point's block: row r in the block of point r / 5000. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨e0, e1, e2, e3, e4, e5⟩ := idx1 t
  refine ⟨t, flush1_2 t, ?_⟩
  show i ∈ ((View.whole main_v51).slice (win1_2.rect t)).set
  rw [View.set_slice_whole, Rect.mem_set_unit]
  intro a
  have ht : t.val = (i 0).val / 5000 := rfl
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The result array after the launch is the layer of the arrays the launch finds. -/
theorem final1 (c : Dev nD) : (dat1 V c).arrAt 2 cfg1.N = biasRelu (V c main_v50) (V c main_v31) :=
  (dat1 V c).arrAt_eq_of_cover 2 _ (fun t _ => flushed1_eq V c t) (cover1)

end Cert.KernelIdeal.Hand

end
-- ==== Proof.Region2.lean ====
/-
  The third launch: every row of a [100000, 128] array normalised (its mean taken off, scaled by the reciprocal square
  root of its variance plus a small offset), times a scale row, plus a shift row, in twenty blocks of 5000 rows. A row's
  normalisation reads that row only, so block t of the result is the layer of block t and the whole result is the layer
  of the whole array.
-/
import proofs.«118496_j57329223467299_1_alg».proof.Proof.Gen.KernelIdeal.Frame
import Idealize.ShloMosaic.Lib.Pipeline.Value
import Idealize.ShloMosaic.Lib.ValueIdx
import proofs.«118496_j57329223467299_1_alg».proof.Proof.Spec
import proofs.«118496_j57329223467299_1_alg».proof.Proof.Blocks
set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.LibRowLayer

variable (V : (c : Dev nD) → (b : Ref sig .tc) → Buf (Elt Ideal) ((c : Thread nD τ).loc b))

/-- The body's stored value is the layer of its loaded blocks. -/
theorem pay2_eq (x0 : Vec Ideal S5000x128 .f32) (x1 x2 : Vec Ideal S1x128 .f32) :
    k2_pay1 x0 x1 x2 = byRows fun p => normRow len128 eps32 (row x0 p) x1 x2 := by
  unfold k2_pay1
  rw [shapeCast_self, shapeCast_self, shapeCast_self]
  exact coreNorm_eq reduces_S5000x128_S5000 _ _ shapeCasts_S5000_S5000x1 broadcasts_S5000x1_S5000x128 broadcasts_S1x128_S5000x128 _ _ x0 x1 x2

/-- Where the launch's blocks sit, decided over its twenty points: the big arrays and the result move down by one block
    of rows per point, the small operands stay. -/
theorem idx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- What point t writes back is block t of the layer of the arrays the launch finds. -/
theorem flushed2_eq (c : Dev nD) (t : Fin cfg2.N) :
    (dat2 V c).flushed 3 t = ((cfg2.win 3).blk t).view.read (Elt Ideal) (norm (V c main_v51) (V c main_v34) (V c main_v35)) := by
  show (cfg2.win 3).cut (grid2.coords t) ((dat2 V c).after 3 t) = _
  rw [after2_3]
  unfold out2_3
  rw [View.canon_unit_zero hz2]
  simp only [View.ld_unit_zero (S := S5000x128) hz2, View.ld_unit_zero (S := S1x128) hz2]
  rw [pay2_eq]
  obtain ⟨e0, e1, e2, e3, e4, e5, e6, e7⟩ := idx2 t
  funext j
  have hj0 : (j 0).val < 5000 := (j 0).isLt
  have hj1 : (j 1).val < 128 := (j 1).isLt
  show normRow len128 eps32 (row (iblk2 V c 0 t) (j 0)) (iblk2 V c 1 t) (iblk2 V c 2 t) (j 1)
      = normRow len128 eps32 (row (V c main_v51) ((((cfg2.win 3).blk t).view.emb j) 0)) (V c main_v34) (V c main_v35) ((((cfg2.win 3).blk t).view.emb j) 1)
  have hrow0 : row (iblk2 V c 0 t) (j 0) = row (V c main_v51) ((((cfg2.win 3).blk t).view.emb j) 0) := by
    funext k
    show V c main_v51 (((cfg2.win 0).blk t).view.emb (ix2 (j 0) k)) = V c main_v51 (ix2 ((((cfg2.win 3).blk t).view.emb j) 0) k)
    refine congrArg (V c main_v51) (funext fun a => Fin.ext ?_)
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  have hsmall1 : (iblk2 V c 1 t : Vec Ideal S1x128 .f32) = V c main_v34 := by
    funext y
    show V c main_v34 (((cfg2.win 1).blk t).view.emb y) = V c main_v34 y
    refine congrArg (V c main_v34) (funext fun a => Fin.ext ?_)
    match a with
    | ⟨0, _⟩ => show win2_1.index t (0 : Fin 2) * 1 + 1 * (y 0).val = (y 0).val; omega
    | ⟨1, _⟩ => show win2_1.index t (1 : Fin 2) * 128 + 1 * (y 1).val = (y 1).val; omega
  have hsmall2 : (iblk2 V c 2 t : Vec Ideal S1x128 .f32) = V c main_v35 := by
    funext y
    show V c main_v35 (((cfg2.win 2).blk t).view.emb y) = V c main_v35 y
    refine congrArg (V c main_v35) (funext fun a => Fin.ext ?_)
    match a with
    | ⟨0, _⟩ => show win2_2.index t (0 : Fin 2) * 1 + 1 * (y 0).val = (y 0).val; omega
    | ⟨1, _⟩ => show win2_2.index t (1 : Fin 2) * 128 + 1 * (y 1).val = (y 1).val; omega
  have hcol : (((cfg2.win 3).blk t).view.emb j) 1 = j 1 := Fin.ext (by
    show win2_3.index t (1 : Fin 2) * 128 + 1 * (j 1).val = (j 1).val; omega)
  rw [hrow0, hsmall1, hsmall2, hcol]

/-- Every row of the result lies in some point's block: row r in the block of point r / 5000. -/
theorem cover2 (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  obtain ⟨e0, e1, e2, e3, e4, e5, e6, e7⟩ := idx2 t
  refine ⟨t, flush2_3 t, ?_⟩
  show i ∈ ((View.whole main_v52).slice (win2_3.rect t)).set
  rw [View.set_slice_whole, Rect.mem_set_unit]
  intro a
  have ht : t.val = (i 0).val / 5000 := rfl
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The result array after the launch is the layer of the arrays the launch finds. -/
theorem final2 (c : Dev nD) : (dat2 V c).arrAt 3 cfg2.N = norm (V c main_v51) (V c main_v34) (V c main_v35) :=
  (dat2 V c).arrAt_eq_of_cover 3 _ (fun t _ => flushed2_eq V c t) (cover2)

end Cert.KernelIdeal.Hand

end
-- ==== Proof.Region3.lean ====
/-
  The fourth launch: a [100000, 128] array times a [128, 128] weight on the matrix unit, in twenty blocks of 5000 rows
  (both operands rounded to the narrower format on the way in, which changes nothing at the ideal values). Block t of
  the product is the product of block t, and the product is row by row, so the whole result is the product of the whole
  array.
-/
import proofs.«118496_j57329223467299_1_alg».proof.Proof.Gen.KernelIdeal.Frame
import Idealize.ShloMosaic.Lib.Pipeline.Value
import Idealize.ShloMosaic.Lib.ValueIdx
import proofs.«118496_j57329223467299_1_alg».proof.Proof.Spec
import proofs.«118496_j57329223467299_1_alg».proof.Proof.Blocks
import proofs.«118496_j57329223467299_1_alg».proof.Proof.DotFacts
set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.LibRowLayer

variable (V : (c : Dev nD) → (b : Ref sig .tc) → Buf (Elt Ideal) ((c : Thread nD τ).loc b))

/-- The body's stored value is the layer of its loaded blocks. -/
theorem pay3_eq (x0 : Vec Ideal S5000x128 .f32) (x1 : Vec Ideal S128x128 .f32) :
    k3_pay1 x0 x1 = byRows fun p => dotRow (row x0 p) x1 := by
  unfold k3_pay1
  rw [shapeCast_self]
  exact blockMatmul_eq x0 x1

/-- Where the launch's blocks sit, decided over its twenty points: the big arrays and the result move down by one block
    of rows per point, the small operands stay. -/
theorem idx3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What point t writes back is block t of the layer of the arrays the launch finds. -/
theorem flushed3_eq (c : Dev nD) (t : Fin cfg3.N) :
    (dat3 V c).flushed 2 t = ((cfg3.win 2).blk t).view.read (Elt Ideal) (mm (V c main_v52) (V c main_arg4)) := by
  show (cfg3.win 2).cut (grid3.coords t) ((dat3 V c).after 2 t) = _
  rw [after3_2]
  unfold out3_2
  rw [View.canon_unit_zero hz2]
  simp only [View.ld_unit_zero (S := S5000x128) hz2, View.ld_unit_zero (S := S128x128) hz2]
  rw [pay3_eq]
  obtain ⟨e0, e1, e2, e3, e4, e5⟩ := idx3 t
  funext j
  have hj0 : (j 0).val < 5000 := (j 0).isLt
  have hj1 : (j 1).val < 128 := (j 1).isLt
  show dotRow (row (iblk3 V c 0 t) (j 0)) (iblk3 V c 1 t) (j 1)
      = dotRow (row (V c main_v52) ((((cfg3.win 2).blk t).view.emb j) 0)) (V c main_arg4) ((((cfg3.win 2).blk t).view.emb j) 1)
  have hrow0 : row (iblk3 V c 0 t) (j 0) = row (V c main_v52) ((((cfg3.win 2).blk t).view.emb j) 0) := by
    funext k
    show V c main_v52 (((cfg3.win 0).blk t).view.emb (ix2 (j 0) k)) = V c main_v52 (ix2 ((((cfg3.win 2).blk t).view.emb j) 0) k)
    refine congrArg (V c main_v52) (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * k.val = k.val; omega
  have hsmall1 : (iblk3 V c 1 t : Vec Ideal S128x128 .f32) = V c main_arg4 := by
    funext y
    show V c main_arg4 (((cfg3.win 1).blk t).view.emb y) = V c main_arg4 y
    refine congrArg (V c main_arg4) (funext fun a => Fin.ext ?_)
    match a with
    | ⟨0, _⟩ => show win3_1.index t (0 : Fin 2) * 128 + 1 * (y 0).val = (y 0).val; omega
    | ⟨1, _⟩ => show win3_1.index t (1 : Fin 2) * 128 + 1 * (y 1).val = (y 1).val; omega
  have hcol : (((cfg3.win 2).blk t).view.emb j) 1 = j 1 := Fin.ext (by
    show win3_2.index t (1 : Fin 2) * 128 + 1 * (j 1).val = (j 1).val; omega)
  rw [hrow0, hsmall1, hcol]

/-- Every row of the result lies in some point's block: row r in the block of point r / 5000. -/
theorem cover3 (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  obtain ⟨e0, e1, e2, e3, e4, e5⟩ := idx3 t
  refine ⟨t, flush3_2 t, ?_⟩
  show i ∈ ((View.whole main_v53).slice (win3_2.rect t)).set
  rw [View.set_slice_whole, Rect.mem_set_unit]
  intro a
  have ht : t.val = (i 0).val / 5000 := rfl
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The result array after the launch is the layer of the arrays the launch finds. -/
theorem final3 (c : Dev nD) : (dat3 V c).arrAt 2 cfg3.N = mm (V c main_v52) (V c main_arg4) :=
  (dat3 V c).arrAt_eq_of_cover 2 _ (fun t _ => flushed3_eq V c t) (cover3)

end Cert.KernelIdeal.Hand

end
-- ==== Proof.Region4.lean ====
/-
  The fifth launch: a bias row added to every row of a [100000, 128] array, the result clipped below at zero, and a
  second [100000, 128] array added, in twenty blocks of 5000 rows. The layer is entry by entry in the two arrays, so block
  t of the result is the layer of the two blocks t and the whole result is the layer of the whole arrays.
-/
import proofs.«118496_j57329223467299_1_alg».proof.Proof.Gen.KernelIdeal.Frame
import Idealize.ShloMosaic.Lib.Pipeline.Value
import Idealize.ShloMosaic.Lib.ValueIdx
import proofs.«118496_j57329223467299_1_alg».proof.Proof.Spec
import proofs.«118496_j57329223467299_1_alg».proof.Proof.Blocks
set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.LibRowLayer

variable (V : (c : Dev nD) → (b : Ref sig .tc) → Buf (Elt Ideal) ((c : Thread nD τ).loc b))

/-- The body's stored value is the layer of its loaded blocks. -/
theorem pay4_eq (x0 : Vec Ideal S5000x128 .f32) (x1 : Vec Ideal S1x128 .f32) (x2 : Vec Ideal S5000x128 .f32) :
    k4_pay1 x0 x1 x2 = byRows fun p q => reluRow zero32 (biasRow (row x0 p) x1) q + row x2 p q := by
  unfold k4_pay1
  rw [shapeCast_self, shapeCast_self, shapeCast_self]
  exact coreBiasReluAdd_eq broadcasts_S1x128_S5000x128 _ x0 x2 x1

/-- Where the launch's blocks sit, decided over its twenty points: the big arrays and the result move down by one block
    of rows per point, the small operands stay. -/
theorem idx4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0
    ∧ win4_3.index t (0 : Fin 2) = t.val
    ∧ win4_3.index t (1 : Fin 2) = 0 :=
  (by decide +kernel : ∀ t : Fin grid4.N, _)

/-- What point t writes back is block t of the layer of the arrays the launch finds. -/
theorem flushed4_eq (c : Dev nD) (t : Fin cfg4.N) :
    (dat4 V c).flushed 3 t = ((cfg4.win 3).blk t).view.read (Elt Ideal) (biasReluAdd (V c main_v65) (V c main_v32) (V c main_v51)) := by
  show (cfg4.win 3).cut (grid4.coords t) ((dat4 V c).after 3 t) = _
  rw [after4_3]
  unfold out4_3
  rw [View.canon_unit_zero hz2]
  simp only [View.ld_unit_zero (S := S5000x128) hz2, View.ld_unit_zero (S := S1x128) hz2]
  rw [pay4_eq]
  obtain ⟨e0, e1, e2, e3, e4, e5, e6, e7⟩ := idx4 t
  funext j
  have hj0 : (j 0).val < 5000 := (j 0).isLt
  have hj1 : (j 1).val < 128 := (j 1).isLt
  show (fun q => reluRow zero32 (biasRow (row (iblk4 V c 0 t) (j 0)) (iblk4 V c 1 t)) q + (row (iblk4 V c 2 t) (j 0)) q) (j 1)
      = (fun q => reluRow zero32 (biasRow (row (V c main_v65) ((((cfg4.win 3).blk t).view.emb j) 0)) (V c main_v32)) q + (row (V c main_v51) ((((cfg4.win 3).blk t).view.emb j) 0)) q) ((((cfg4.win 3).blk t).view.emb j) 1)
  have hrow0 : row (iblk4 V c 0 t) (j 0) = row (V c main_v65) ((((cfg4.win 3).blk t).view.emb j) 0) := by
    funext k
    show V c main_v65 (((cfg4.win 0).blk t).view.emb (ix2 (j 0) k)) = V c main_v65 (ix2 ((((cfg4.win 3).blk t).view.emb j) 0) k)
    refine congrArg (V c main_v65) (funext fun a => Fin.ext ?_)
    match a with
    | ⟨0, _⟩ => show win4_0.index t (0 : Fin 2) * 5000 + 1 * (j 0).val = win4_3.index t (0 : Fin 2) * 5000 + 1 * (j 0).val; omega
    | ⟨1, _⟩ => show win4_0.index t (1 : Fin 2) * 128 + 1 * k.val = k.val; omega
  have hsmall1 : (iblk4 V c 1 t : Vec Ideal S1x128 .f32) = V c main_v32 := by
    funext y
    show V c main_v32 (((cfg4.win 1).blk t).view.emb y) = V c main_v32 y
    refine congrArg (V c main_v32) (funext fun a => Fin.ext ?_)
    match a with
    | ⟨0, _⟩ => show win4_1.index t (0 : Fin 2) * 1 + 1 * (y 0).val = (y 0).val; omega
    | ⟨1, _⟩ => show win4_1.index t (1 : Fin 2) * 128 + 1 * (y 1).val = (y 1).val; omega
  have hrow2 : row (iblk4 V c 2 t) (j 0) = row (V c main_v51) ((((cfg4.win 3).blk t).view.emb j) 0) := by
    funext k
    show V c main_v51 (((cfg4.win 2).blk t).view.emb (ix2 (j 0) k)) = V c main_v51 (ix2 ((((cfg4.win 3).blk t).view.emb j) 0) k)
    refine congrArg (V c main_v51) (funext fun a => Fin.ext ?_)
    match a with
    | ⟨0, _⟩ => show win4_2.index t (0 : Fin 2) * 5000 + 1 * (j 0).val = win4_3.index t (0 : Fin 2) * 5000 + 1 * (j 0).val; omega
    | ⟨1, _⟩ => show win4_2.index t (1 : Fin 2) * 128 + 1 * k.val = k.val; omega
  have hcol : (((cfg4.win 3).blk t).view.emb j) 1 = j 1 := Fin.ext (by
    show win4_3.index t (1 : Fin 2) * 128 + 1 * (j 1).val = (j 1).val; omega)
  rw [hrow0, hsmall1, hrow2, hcol]

/-- Every row of the result lies in some point's block: row r in the block of point r / 5000. -/
theorem cover4 (i : S100000x128.Idx) : ∃ t : Fin cfg4.N, (cfg4.win 3).flush t = true ∧ i ∈ ((cfg4.win 3).blk t).view.set := by
  have hi0 : (i 0).val < 100000 := (i 0).isLt
  have hi1 : (i 1).val < 128 := (i 1).isLt
  have hN : cfg4.N = 20 := N_4
  let t : Fin cfg4.N := ⟨(i 0).val / 5000, by rw [hN]; omega⟩
  obtain ⟨e0, e1, e2, e3, e4, e5, e6, e7⟩ := idx4 t
  refine ⟨t, flush4_3 t, ?_⟩
  show i ∈ ((View.whole main_v66).slice (win4_3.rect t)).set
  rw [View.set_slice_whole, Rect.mem_set_unit]
  intro a
  have ht : t.val = (i 0).val / 5000 := rfl
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 128 ≤ (i 1).val ∧ (i 1).val < win4_3.index t (1 : Fin 2) * 128 + 128; omega

/-- The result array after the launch is the layer of the arrays the launch finds. -/
theorem final4 (c : Dev nD) : (dat4 V c).arrAt 3 cfg4.N = biasReluAdd (V c main_v65) (V c main_v32) (V c main_v51) :=
  (dat4 V c).arrAt_eq_of_cover 3 _ (fun t _ => flushed4_eq V c t) (cover4)

end Cert.KernelIdeal.Hand

end
-- ==== Proof.Region5.lean ====
/-
  The sixth launch: a [100000, 128] array times a [128, 128] weight on the matrix unit, in twenty blocks of 5000 rows
  (both operands rounded to the narrower format on the way in, which changes nothing at the ideal values). Block t of
  the product is the product of block t, and the product is row by row, so the whole result is the product of the whole
  array.
-/
import proofs.«118496_j57329223467299_1_alg».proof.Proof.Gen.KernelIdeal.Frame
import Idealize.ShloMosaic.Lib.Pipeline.Value
import Idealize.ShloMosaic.Lib.ValueIdx
import proofs.«118496_j57329223467299_1_alg».proof.Proof.Spec
import proofs.«118496_j57329223467299_1_alg».proof.Proof.Blocks
import proofs.«118496_j57329223467299_1_alg».proof.Proof.DotFacts
set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.LibRowLayer

variable (V : (c : Dev nD) → (b : Ref sig .tc) → Buf (Elt Ideal) ((c : Thread nD τ).loc b))

/-- The body's stored value is the layer of its loaded blocks. -/
theorem pay5_eq (x0 : Vec Ideal S5000x128 .f32) (x1 : Vec Ideal S128x128 .f32) :
    k5_pay1 x0 x1 = byRows fun p => dotRow (row x0 p) x1 := by
  unfold k5_pay1
  rw [shapeCast_self]
  exact blockMatmul_eq x0 x1

/-- Where the launch's blocks sit, decided over its twenty points: the big arrays and the result move down by one block
    of rows per point, the small operands stay. -/
theorem idx5 : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- What point t writes back is block t of the layer of the arrays the launch finds. -/
theorem flushed5_eq (c : Dev nD) (t : Fin cfg5.N) :
    (dat5 V c).flushed 2 t = ((cfg5.win 2).blk t).view.read (Elt Ideal) (mm (V c main_v66) (V c main_arg6)) := by
  show (cfg5.win 2).cut (grid5.coords t) ((dat5 V c).after 2 t) = _
  rw [after5_2]
  unfold out5_2
  rw [View.canon_unit_zero hz2]
  simp only [View.ld_unit_zero (S := S5000x128) hz2, View.ld_unit_zero (S := S128x128) hz2]
  rw [pay5_eq]
  obtain ⟨e0, e1, e2, e3, e4, e5⟩ := idx5 t
  funext j
  have hj0 : (j 0).val < 5000 := (j 0).isLt
  have hj1 : (j 1).val < 128 := (j 1).isLt
  show dotRow (row (iblk5 V c 0 t) (j 0)) (iblk5 V c 1 t) (j 1)
      = dotRow (row (V c main_v66) ((((cfg5.win 2).blk t).view.emb j) 0)) (V c main_arg6) ((((cfg5.win 2).blk t).view.emb j) 1)
  have hrow0 : row (iblk5 V c 0 t) (j 0) = row (V c main_v66) ((((cfg5.win 2).blk t).view.emb j) 0) := by
    funext k
    show V c main_v66 (((cfg5.win 0).blk t).view.emb (ix2 (j 0) k)) = V c main_v66 (ix2 ((((cfg5.win 2).blk t).view.emb j) 0) k)
    refine congrArg (V c main_v66) (funext fun a => Fin.ext ?_)
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 128 + 1 * k.val = k.val; omega
  have hsmall1 : (iblk5 V c 1 t : Vec Ideal S128x128 .f32) = V c main_arg6 := by
    funext y
    show V c main_arg6 (((cfg5.win 1).blk t).view.emb y) = V c main_arg6 y
    refine congrArg (V c main_arg6) (funext fun a => Fin.ext ?_)
    match a with
    | ⟨0, _⟩ => show win5_1.index t (0 : Fin 2) * 128 + 1 * (y 0).val = (y 0).val; omega
    | ⟨1, _⟩ => show win5_1.index t (1 : Fin 2) * 128 + 1 * (y 1).val = (y 1).val; omega
  have hcol : (((cfg5.win 2).blk t).view.emb j) 1 = j 1 := Fin.ext (by
    show win5_2.index t (1 : Fin 2) * 128 + 1 * (j 1).val = (j 1).val; omega)
  rw [hrow0, hsmall1, hcol]

/-- Every row of the result lies in some point's block: row r in the block of point r / 5000. -/
theorem cover5 (i : S100000x128.Idx) : ∃ t : Fin cfg5.N, (cfg5.win 2).flush t = true ∧ i ∈ ((cfg5.win 2).blk t).view.set := by
  have hi0 : (i 0).val < 100000 := (i 0).isLt
  have hi1 : (i 1).val < 128 := (i 1).isLt
  have hN : cfg5.N = 20 := N_5
  let t : Fin cfg5.N := ⟨(i 0).val / 5000, by rw [hN]; omega⟩
  obtain ⟨e0, e1, e2, e3, e4, e5⟩ := idx5 t
  refine ⟨t, flush5_2 t, ?_⟩
  show i ∈ ((View.whole main_v67).slice (win5_2.rect t)).set
  rw [View.set_slice_whole, Rect.mem_set_unit]
  intro a
  have ht : t.val = (i 0).val / 5000 := rfl
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- The result array after the launch is the layer of the arrays the launch finds. -/
theorem final5 (c : Dev nD) : (dat5 V c).arrAt 2 cfg5.N = mm (V c main_v66) (V c main_arg6) :=
  (dat5 V c).arrAt_eq_of_cover 2 _ (fun t _ => flushed5_eq V c t) (cover5)

end Cert.KernelIdeal.Hand

end
-- ==== Proof.Region6.lean ====
/-
  The last launch: a bias row added to every row of a [100000, 128] array, then every row normalised, times a scale row,
  plus a shift row, in twenty blocks of 5000 rows. A row of the result reads that row of the array only, so block t of the
  result is the layer of block t and the whole result is the layer of the whole array.
-/
import proofs.«118496_j57329223467299_1_alg».proof.Proof.Gen.KernelIdeal.Frame
import Idealize.ShloMosaic.Lib.Pipeline.Value
import Idealize.ShloMosaic.Lib.ValueIdx
import proofs.«118496_j57329223467299_1_alg».proof.Proof.Spec
import proofs.«118496_j57329223467299_1_alg».proof.Proof.Blocks
set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.LibRowLayer

variable (V : (c : Dev nD) → (b : Ref sig .tc) → Buf (Elt Ideal) ((c : Thread nD τ).loc b))

/-- The body's stored value is the layer of its loaded blocks. -/
theorem pay6_eq (x0 : Vec Ideal S5000x128 .f32) (x1 x2 x3 : Vec Ideal S1x128 .f32) :
    k6_pay1 x0 x1 x2 x3 = byRows fun p => normRow len128 eps32 (biasRow (row x0 p) x1) x2 x3 := by
  unfold k6_pay1
  rw [shapeCast_self, shapeCast_self, shapeCast_self, shapeCast_self]
  refine (coreNorm_eq reduces_S5000x128_S5000 _ _ shapeCasts_S5000_S5000x1 broadcasts_S5000x1_S5000x128 broadcasts_S1x128_S5000x128 _ _
    (addf x0 (broadcastTo S5000x128 x1 broadcasts_S1x128_S5000x128)) x2 x3).trans ?_
  have hr : ∀ p : Fin 5000, row (addf x0 (broadcastTo S5000x128 x1 broadcasts_S1x128_S5000x128)) p = biasRow (row x0 p) x1 :=
    fun p => funext fun q => coreBias_ix2 broadcasts_S1x128_S5000x128 x0 x1 p q
  funext i
  exact congrArg (fun r => normRow len128 eps32 r x2 x3 (i 1)) (hr (i 0))

set_option maxHeartbeats 2000000 in
/-- Where the launch's blocks sit, decided over its twenty points: the big arrays and the result move down by one block
    of rows per point, the small operands stay. -/
theorem idx6 : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = t.val
    ∧ win6_4.index t (1 : Fin 2) = 0 :=
  (by decide +kernel : ∀ t : Fin grid6.N, _)

set_option maxHeartbeats 4000000 in
/-- What point t writes back is block t of the layer of the arrays the launch finds. -/
theorem flushed6_eq (c : Dev nD) (t : Fin cfg6.N) :
    (dat6 V c).flushed 4 t = ((cfg6.win 4).blk t).view.read (Elt Ideal) (biasNorm (V c main_v79) (V c main_v33) (V c main_v36) (V c main_v37)) := by
  show (cfg6.win 4).cut (grid6.coords t) ((dat6 V c).after 4 t) = _
  rw [after6_4]
  unfold out6_4
  rw [View.canon_unit_zero hz2]
  simp only [View.ld_unit_zero (S := S5000x128) hz2, View.ld_unit_zero (S := S1x128) hz2]
  rw [pay6_eq]
  obtain ⟨e0, e1, e2, e3, e4, e5, e6, e7, e8, e9⟩ := idx6 t
  funext j
  have hj0 : (j 0).val < 5000 := (j 0).isLt
  have hj1 : (j 1).val < 128 := (j 1).isLt
  show normRow len128 eps32 (biasRow (row (iblk6 V c 0 t) (j 0)) (iblk6 V c 1 t)) (iblk6 V c 2 t) (iblk6 V c 3 t) (j 1)
      = normRow len128 eps32 (biasRow (row (V c main_v79) ((((cfg6.win 4).blk t).view.emb j) 0)) (V c main_v33)) (V c main_v36) (V c main_v37) ((((cfg6.win 4).blk t).view.emb j) 1)
  have hrow0 : row (iblk6 V c 0 t) (j 0) = row (V c main_v79) ((((cfg6.win 4).blk t).view.emb j) 0) := by
    funext k
    show V c main_v79 (((cfg6.win 0).blk t).view.emb (ix2 (j 0) k)) = V c main_v79 (ix2 ((((cfg6.win 4).blk t).view.emb j) 0) k)
    refine congrArg (V c main_v79) (funext fun a => Fin.ext ?_)
    match a with
    | ⟨0, _⟩ => show win6_0.index t (0 : Fin 2) * 5000 + 1 * (j 0).val = win6_4.index t (0 : Fin 2) * 5000 + 1 * (j 0).val; omega
    | ⟨1, _⟩ => show win6_0.index t (1 : Fin 2) * 128 + 1 * k.val = k.val; omega
  have hsmall1 : (iblk6 V c 1 t : Vec Ideal S1x128 .f32) = V c main_v33 := by
    funext y
    show V c main_v33 (((cfg6.win 1).blk t).view.emb y) = V c main_v33 y
    refine congrArg (V c main_v33) (funext fun a => Fin.ext ?_)
    match a with
    | ⟨0, _⟩ => show win6_1.index t (0 : Fin 2) * 1 + 1 * (y 0).val = (y 0).val; omega
    | ⟨1, _⟩ => show win6_1.index t (1 : Fin 2) * 128 + 1 * (y 1).val = (y 1).val; omega
  have hsmall2 : (iblk6 V c 2 t : Vec Ideal S1x128 .f32) = V c main_v36 := by
    funext y
    show V c main_v36 (((cfg6.win 2).blk t).view.emb y) = V c main_v36 y
    refine congrArg (V c main_v36) (funext fun a => Fin.ext ?_)
    match a with
    | ⟨0, _⟩ => show win6_2.index t (0 : Fin 2) * 1 + 1 * (y 0).val = (y 0).val; omega
    | ⟨1, _⟩ => show win6_2.index t (1 : Fin 2) * 128 + 1 * (y 1).val = (y 1).val; omega
  have hsmall3 : (iblk6 V c 3 t : Vec Ideal S1x128 .f32) = V c main_v37 := by
    funext y
    show V c main_v37 (((cfg6.win 3).blk t).view.emb y) = V c main_v37 y
    refine congrArg (V c main_v37) (funext fun a => Fin.ext ?_)
    match a with
    | ⟨0, _⟩ => show win6_3.index t (0 : Fin 2) * 1 + 1 * (y 0).val = (y 0).val; omega
    | ⟨1, _⟩ => show win6_3.index t (1 : Fin 2) * 128 + 1 * (y 1).val = (y 1).val; omega
  have hcol : (((cfg6.win 4).blk t).view.emb j) 1 = j 1 := Fin.ext (by
    show win6_4.index t (1 : Fin 2) * 128 + 1 * (j 1).val = (j 1).val; omega)
  rw [hrow0, hsmall1, hsmall2, hsmall3, hcol]

/-- Every row of the result lies in some point's block: row r in the block of point r / 5000. -/
theorem cover6 (i : S100000x128.Idx) : ∃ t : Fin cfg6.N, (cfg6.win 4).flush t = true ∧ i ∈ ((cfg6.win 4).blk t).view.set := by
  have hi0 : (i 0).val < 100000 := (i 0).isLt
  have hi1 : (i 1).val < 128 := (i 1).isLt
  have hN : cfg6.N = 20 := N_6
  let t : Fin cfg6.N := ⟨(i 0).val / 5000, by rw [hN]; omega⟩
  obtain ⟨e0, e1, e2, e3, e4, e5, e6, e7, e8, e9⟩ := idx6 t
  refine ⟨t, flush6_4 t, ?_⟩
  show i ∈ ((View.whole main_v80).slice (win6_4.rect t)).set
  rw [View.set_slice_whole, Rect.mem_set_unit]
  intro a
  have ht : t.val = (i 0).val / 5000 := rfl
  match a with
  | ⟨0, _⟩ => show win6_4.index t (0 : Fin 2) * 5000 ≤ (i 0).val ∧ (i 0).val < win6_4.index t (0 : Fin 2) * 5000 + 5000; omega
  | ⟨1, _⟩ => show win6_4.index t (1 : Fin 2) * 128 ≤ (i 1).val ∧ (i 1).val < win6_4.index t (1 : Fin 2) * 128 + 128; omega

/-- The result array after the launch is the layer of the arrays the launch finds. -/
theorem final6 (c : Dev nD) : (dat6 V c).arrAt 4 cfg6.N = biasNorm (V c main_v79) (V c main_v33) (V c main_v36) (V c main_v37) :=
  (dat6 V c).arrAt_eq_of_cover 4 _ (fun t _ => flushed6_eq V c t) (cover6)

end Cert.KernelIdeal.Hand

end
-- ==== Proof.KernelValue.lean ====
/-
  What the idealized kernel's run returns. Following the program's thirteen segments from the launch contents: the first
  host stretches leave the edge indices, the edges' coefficients and the seven vectors as rows; then each launch's result
  array is its layer of the arrays it finds, each later host stretch is one convolution over the edges of the array the
  launch before it wrote, and every buffer a segment does not write passes through it. Composed, the result buffer ends
  holding the network of the twelve arguments.
-/
import proofs.«118496_j57329223467299_1_alg».proof.Proof.Gen.KernelIdeal.Frame
import Idealize.ShloMosaic.Lib.Pipeline.Value
import Idealize.ShloMosaic.Lib.ValueIdx
import proofs.«118496_j57329223467299_1_alg».proof.Proof.Spec
import proofs.«118496_j57329223467299_1_alg».proof.Proof.Walk
import proofs.«118496_j57329223467299_1_alg».proof.Proof.HostReads
import proofs.«118496_j57329223467299_1_alg».proof.Proof.Region0
import proofs.«118496_j57329223467299_1_alg».proof.Proof.Region1
import proofs.«118496_j57329223467299_1_alg».proof.Proof.Region2
import proofs.«118496_j57329223467299_1_alg».proof.Proof.Region3
import proofs.«118496_j57329223467299_1_alg».proof.Proof.Region4
import proofs.«118496_j57329223467299_1_alg».proof.Proof.Region5
import proofs.«118496_j57329223467299_1_alg».proof.Proof.Region6
set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.LibRowLayer

variable (m : (ℓ : Loc nD τ sig) → Buf (Elt Ideal) ℓ) (ρ : Dev nD → PrngReg)

/-! ## Buffers that pass through the segments -/

theorem kept4 (c : Dev nD) (b : Ref sig .tc) (h0 : b ≠ main_v38) :
    W4 m ρ c (Proc.devRef .tc b) = W3 m ρ c (Proc.devRef .tc b) :=
  keepR0 m ρ c b h0
theorem kept5 (c : Dev nD) (b : Ref sig .tc) (h0 : b ≠ main_v38) (h1 : b ∉ H1W) :
    W5 m ρ c (Proc.devRef .tc b) = W3 m ρ c (Proc.devRef .tc b) :=
  (keepH1 m ρ c b h1).trans (kept4 m ρ c b h0)
theorem kept6 (c : Dev nD) (b : Ref sig .tc) (h0 : b ≠ main_v38) (h1 : b ∉ H1W) (h2 : b ≠ main_v51) :
    W6 m ρ c (Proc.devRef .tc b) = W3 m ρ c (Proc.devRef .tc b) :=
  (keepR1 m ρ c b h2).trans (kept5 m ρ c b h0 h1)
theorem kept7 (c : Dev nD) (b : Ref sig .tc) (h0 : b ≠ main_v38) (h1 : b ∉ H1W) (h2 : b ≠ main_v51) (h3 : b ≠ main_v52) :
    W7 m ρ c (Proc.devRef .tc b) = W3 m ρ c (Proc.devRef .tc b) :=
  (keepR2 m ρ c b h3).trans (kept6 m ρ c b h0 h1 h2)
theorem kept8 (c : Dev nD) (b : Ref sig .tc) (h0 : b ≠ main_v38) (h1 : b ∉ H1W) (h2 : b ≠ main_v51) (h3 : b ≠ main_v52) (h4 : b ≠ main_v53) :
    W8 m ρ c (Proc.devRef .tc b) = W3 m ρ c (Proc.devRef .tc b) :=
  (keepR3 m ρ c b h4).trans (kept7 m ρ c b h0 h1 h2 h3)
theorem kept9 (c : Dev nD) (b : Ref sig .tc) (h0 : b ≠ main_v38) (h1 : b ∉ H1W) (h2 : b ≠ main_v51) (h3 : b ≠ main_v52) (h4 : b ≠ main_v53) (h5 : b ∉ H4W) :
    W9 m ρ c (Proc.devRef .tc b) = W3 m ρ c (Proc.devRef .tc b) :=
  (keepH4 m ρ c b h5).trans (kept8 m ρ c b h0 h1 h2 h3 h4)
theorem kept10 (c : Dev nD) (b : Ref sig .tc) (h0 : b ≠ main_v38) (h1 : b ∉ H1W) (h2 : b ≠ main_v51) (h3 : b ≠ main_v52) (h4 : b ≠ main_v53) (h5 : b ∉ H4W) (h6 : b ≠ main_v66) :
    W10 m ρ c (Proc.devRef .tc b) = W3 m ρ c (Proc.devRef .tc b) :=
  (keepR4 m ρ c b h6).trans (kept9 m ρ c b h0 h1 h2 h3 h4 h5)
theorem kept11 (c : Dev nD) (b : Ref sig .tc) (h0 : b ≠ main_v38) (h1 : b ∉ H1W) (h2 : b ≠ main_v51) (h3 : b ≠ main_v52) (h4 : b ≠ main_v53) (h5 : b ∉ H4W) (h6 : b ≠ main_v66) (h7 : b ≠ main_v67) :
    W11 m ρ c (Proc.devRef .tc b) = W3 m ρ c (Proc.devRef .tc b) :=
  (keepR5 m ρ c b h7).trans (kept10 m ρ c b h0 h1 h2 h3 h4 h5 h6)
theorem kept12 (c : Dev nD) (b : Ref sig .tc) (h0 : b ≠ main_v38) (h1 : b ∉ H1W) (h2 : b ≠ main_v51) (h3 : b ≠ main_v52) (h4 : b ≠ main_v53) (h5 : b ∉ H4W) (h6 : b ≠ main_v66) (h7 : b ≠ main_v67) (h8 : b ∉ H6W) :
    W12 m ρ c (Proc.devRef .tc b) = W3 m ρ c (Proc.devRef .tc b) :=
  (keepH6 m ρ c b h8).trans (kept11 m ρ c b h0 h1 h2 h3 h4 h5 h6 h7)

/-! ## The contents at the first launch -/

theorem at3_v5 (c : Dev nD) : W3 m ρ c (Proc.devRef .tc main_v5) = srcIdx (F := Ideal) (m ((c : Thread nD τ).loc main_arg1)) := H0_v5 (W0 m ρ c)
theorem at3_v6 (c : Dev nD) : W3 m ρ c (Proc.devRef .tc main_v6) = dstIdx (F := Ideal) (m ((c : Thread nD τ).loc main_arg1)) := H0_v6 (W0 m ρ c)
theorem at3_v30 (c : Dev nD) : W3 m ρ c (Proc.devRef .tc main_v30) = normCol (F := Ideal) (m ((c : Thread nD τ).loc main_arg1)) := H0_v30 (W0 m ρ c)
theorem at3_v31 (c : Dev nD) : W3 m ρ c (Proc.devRef .tc main_v31) = rowOfF (F := Ideal) (m ((c : Thread nD τ).loc main_arg3)) := H0_v31 (W0 m ρ c)
theorem at3_v32 (c : Dev nD) : W3 m ρ c (Proc.devRef .tc main_v32) = rowOfF (F := Ideal) (m ((c : Thread nD τ).loc main_arg5)) := H0_v32 (W0 m ρ c)
theorem at3_v33 (c : Dev nD) : W3 m ρ c (Proc.devRef .tc main_v33) = rowOfF (F := Ideal) (m ((c : Thread nD τ).loc main_arg7)) := H0_v33 (W0 m ρ c)
theorem at3_v34 (c : Dev nD) : W3 m ρ c (Proc.devRef .tc main_v34) = rowOfF (F := Ideal) (m ((c : Thread nD τ).loc main_arg8)) := H0_v34 (W0 m ρ c)
theorem at3_v35 (c : Dev nD) : W3 m ρ c (Proc.devRef .tc main_v35) = rowOfF (F := Ideal) (m ((c : Thread nD τ).loc main_arg9)) := H0_v35 (W0 m ρ c)
theorem at3_v36 (c : Dev nD) : W3 m ρ c (Proc.devRef .tc main_v36) = rowOfF (F := Ideal) (m ((c : Thread nD τ).loc main_arg10)) := H0_v36 (W0 m ρ c)
theorem at3_v37 (c : Dev nD) : W3 m ρ c (Proc.devRef .tc main_v37) = rowOfF (F := Ideal) (m ((c : Thread nD τ).loc main_arg11)) := H0_v37 (W0 m ρ c)
theorem at3_arg0 (c : Dev nD) : W3 m ρ c (Proc.devRef .tc main_arg0) = id (m ((c : Thread nD τ).loc main_arg0)) := H0_arg0 (W0 m ρ c)
theorem at3_arg2 (c : Dev nD) : W3 m ρ c (Proc.devRef .tc main_arg2) = id (m ((c : Thread nD τ).loc main_arg2)) := H0_arg2 (W0 m ρ c)
theorem at3_arg4 (c : Dev nD) : W3 m ρ c (Proc.devRef .tc main_arg4) = id (m ((c : Thread nD τ).loc main_arg4)) := H0_arg4 (W0 m ρ c)
theorem at3_arg6 (c : Dev nD) : W3 m ρ c (Proc.devRef .tc main_arg6) = id (m ((c : Thread nD τ).loc main_arg6)) := H0_arg6 (W0 m ρ c)

/-! ## The run's result -/

/-- The first launch's product. -/
theorem at4_v38 (c : Dev nD) : W4 m ρ c (Proc.devRef .tc main_v38) = mm (m ((c : Thread nD τ).loc main_arg0)) (m ((c : Thread nD τ).loc main_arg2)) :=
  (W4_arr m ρ c 2).trans ((final0 (V3 m ρ) c).trans (by
    rw [show V3 m ρ c main_arg0 = (m ((c : Thread nD τ).loc main_arg0)) from at3_arg0 m ρ c, show V3 m ρ c main_arg2 = (m ((c : Thread nD τ).loc main_arg2)) from at3_arg2 m ρ c]))

/-- The first convolution. -/
theorem at5_v50 (c : Dev nD) : W5 m ρ c (Proc.devRef .tc main_v50) = conv (F := Ideal) (mm (m ((c : Thread nD τ).loc main_arg0)) (m ((c : Thread nD τ).loc main_arg2))) (m ((c : Thread nD τ).loc main_arg1)) :=
  (hostOps1_v50 (W4 m ρ c)).trans (by
    rw [at4_v38 m ρ c, kept4 m ρ c main_v5 (by decide), kept4 m ρ c main_v30 (by decide), kept4 m ρ c main_v6 (by decide),
      at3_v5 m ρ c, at3_v30 m ρ c, at3_v6 m ρ c]
    rfl)

/-- The first layer. -/
theorem at6_v51 (c : Dev nD) : W6 m ρ c (Proc.devRef .tc main_v51) = (layer1 (m ((c : Thread nD τ).loc main_arg0)) (m ((c : Thread nD τ).loc main_arg1)) (m ((c : Thread nD τ).loc main_arg2)) (m ((c : Thread nD τ).loc main_arg3))) :=
  (W6_arr m ρ c 2).trans ((final1 (V5 m ρ) c).trans (by
    rw [show V5 m ρ c main_v50 = _ from at5_v50 m ρ c, show V5 m ρ c main_v31 = _ from (kept5 m ρ c main_v31 (by decide) (by decide)).trans (at3_v31 m ρ c)]
    rfl))

/-- The normalisation after the first layer. -/
theorem at7_v52 (c : Dev nD) : W7 m ρ c (Proc.devRef .tc main_v52) = (norm (layer1 (m ((c : Thread nD τ).loc main_arg0)) (m ((c : Thread nD τ).loc main_arg1)) (m ((c : Thread nD τ).loc main_arg2)) (m ((c : Thread nD τ).loc main_arg3))) (rowOf (m ((c : Thread nD τ).loc main_arg8))) (rowOf (m ((c : Thread nD τ).loc main_arg9)))) :=
  (W7_arr m ρ c 3).trans ((final2 (V6 m ρ) c).trans (by
    rw [show V6 m ρ c main_v51 = _ from at6_v51 m ρ c, show V6 m ρ c main_v34 = _ from (kept6 m ρ c main_v34 (by decide) (by decide) (by decide)).trans (at3_v34 m ρ c),
      show V6 m ρ c main_v35 = _ from (kept6 m ρ c main_v35 (by decide) (by decide) (by decide)).trans (at3_v35 m ρ c)]
    rfl))

/-- The second product. -/
theorem at8_v53 (c : Dev nD) : W8 m ρ c (Proc.devRef .tc main_v53) = mm (norm (layer1 (m ((c : Thread nD τ).loc main_arg0)) (m ((c : Thread nD τ).loc main_arg1)) (m ((c : Thread nD τ).loc main_arg2)) (m ((c : Thread nD τ).loc main_arg3))) (rowOf (m ((c : Thread nD τ).loc main_arg8))) (rowOf (m ((c : Thread nD τ).loc main_arg9)))) (m ((c : Thread nD τ).loc main_arg4)) :=
  (W8_arr m ρ c 2).trans ((final3 (V7 m ρ) c).trans (by
    rw [show V7 m ρ c main_v52 = _ from at7_v52 m ρ c, show V7 m ρ c main_arg4 = _ from (kept7 m ρ c main_arg4 (by decide) (by decide) (by decide) (by decide)).trans (at3_arg4 m ρ c)]
    rfl))

/-- The second convolution. -/
theorem at9_v65 (c : Dev nD) : W9 m ρ c (Proc.devRef .tc main_v65) = conv (F := Ideal) (mm (norm (layer1 (m ((c : Thread nD τ).loc main_arg0)) (m ((c : Thread nD τ).loc main_arg1)) (m ((c : Thread nD τ).loc main_arg2)) (m ((c : Thread nD τ).loc main_arg3))) (rowOf (m ((c : Thread nD τ).loc main_arg8))) (rowOf (m ((c : Thread nD τ).loc main_arg9)))) (m ((c : Thread nD τ).loc main_arg4))) (m ((c : Thread nD τ).loc main_arg1)) :=
  (hostOps4_v65 (W8 m ρ c)).trans (by
    rw [at8_v53 m ρ c, kept8 m ρ c main_v5 (by decide) (by decide) (by decide) (by decide) (by decide), kept8 m ρ c main_v30 (by decide) (by decide) (by decide) (by decide) (by decide), kept8 m ρ c main_v6 (by decide) (by decide) (by decide) (by decide) (by decide),
      at3_v5 m ρ c, at3_v30 m ρ c, at3_v6 m ρ c]
    rfl)

/-- The first layer's output is still there when the fifth launch reads it. -/
theorem at9_v51 (c : Dev nD) : W9 m ρ c (Proc.devRef .tc main_v51) = (layer1 (m ((c : Thread nD τ).loc main_arg0)) (m ((c : Thread nD τ).loc main_arg1)) (m ((c : Thread nD τ).loc main_arg2)) (m ((c : Thread nD τ).loc main_arg3))) :=
  (keepH4 m ρ c main_v51 (by decide)).trans ((keepR3 m ρ c main_v51 (by decide)).trans ((keepR2 m ρ c main_v51 (by decide)).trans (at6_v51 m ρ c)))

/-- The second layer. -/
theorem at10_v66 (c : Dev nD) : W10 m ρ c (Proc.devRef .tc main_v66) = (layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9))) :=
  (W10_arr m ρ c 3).trans ((final4 (V9 m ρ) c).trans (by
    rw [show V9 m ρ c main_v65 = _ from at9_v65 m ρ c, show V9 m ρ c main_v32 = _ from (kept9 m ρ c main_v32 (by decide) (by decide) (by decide) (by decide) (by decide) (by decide)).trans (at3_v32 m ρ c),
      show V9 m ρ c main_v51 = _ from at9_v51 m ρ c]
    rfl))

/-- The third product. -/
theorem at11_v67 (c : Dev nD) : W11 m ρ c (Proc.devRef .tc main_v67) = mm (layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9))) (m ((c : Thread nD τ).loc main_arg6)) :=
  (W11_arr m ρ c 2).trans ((final5 (V10 m ρ) c).trans (by
    rw [show V10 m ρ c main_v66 = _ from at10_v66 m ρ c, show V10 m ρ c main_arg6 = _ from (kept10 m ρ c main_arg6 (by decide) (by decide) (by decide) (by decide) (by decide) (by decide) (by decide)).trans (at3_arg6 m ρ c)]
    rfl))

/-- The third convolution. -/
theorem at12_v79 (c : Dev nD) : W12 m ρ c (Proc.devRef .tc main_v79) = conv (F := Ideal) (mm (layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9))) (m ((c : Thread nD τ).loc main_arg6))) (m ((c : Thread nD τ).loc main_arg1)) :=
  (hostOps6_v79 (W11 m ρ c)).trans (by
    rw [at11_v67 m ρ c, kept11 m ρ c main_v5 (by decide) (by decide) (by decide) (by decide) (by decide) (by decide) (by decide) (by decide), kept11 m ρ c main_v30 (by decide) (by decide) (by decide) (by decide) (by decide) (by decide) (by decide) (by decide), kept11 m ρ c main_v6 (by decide) (by decide) (by decide) (by decide) (by decide) (by decide) (by decide) (by decide),
      at3_v5 m ρ c, at3_v30 m ρ c, at3_v6 m ρ c]
    rfl)

/-- THE RESULT: the last boundary's contents at the result buffer are the network of the arguments. -/
theorem kernel_value (c : Dev nD) : W13 m ρ c (Proc.devRef .tc main_v80)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W13_arr m ρ c 4).trans ((final6 (V12 m ρ) c).trans (by
    rw [show V12 m ρ c main_v79 = _ from at12_v79 m ρ c, show V12 m ρ c main_v33 = _ from (kept12 m ρ c main_v33 (by decide) (by decide) (by decide) (by decide) (by decide) (by decide) (by decide) (by decide) (by decide)).trans (at3_v33 m ρ c),
      show V12 m ρ c main_v36 = _ from (kept12 m ρ c main_v36 (by decide) (by decide) (by decide) (by decide) (by decide) (by decide) (by decide) (by decide) (by decide)).trans (at3_v36 m ρ c),
      show V12 m ρ c main_v37 = _ from (kept12 m ρ c main_v37 (by decide) (by decide) (by decide) (by decide) (by decide) (by decide) (by decide) (by decide) (by decide)).trans (at3_v37 m ρ c)]
    rfl))

end Cert.KernelIdeal.Hand

end
-- ==== Proof.RefDefs.lean ====
/-
  The reference's spelling of the network's pieces, as functions of their operands at any float values: the same
  edge-list functions and convolution as the kernel's host side (the two programs print the same operations with the same
  dimension records), a product with a weight, a vector laid along every row and added, the maximum with zero, and the
  chain of row sums, quotients, differences, products and a reciprocal square root that normalises every row.
-/
import proofs.«118496_j57329223467299_1_alg».proof.Proof.Gen.ReferenceIdeal

noncomputable section

namespace Cert.ReferenceIdeal.Hand

open Cert.ReferenceIdeal Cert.ReferenceIdeal.Gen Idealize.ShloMosaic

variable {F : FTy → Type} [FloatOps F]

/-- Row 0 of the edge list: every edge's source node. -/
def srcRow (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- Row 1 of the edge list: every edge's target node. -/
def dstRow (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- One end of every edge, then of every self loop. -/
def withLoops (s : (⟨S1600000, .i32⟩ : BufTy).Contents (Elt F)) : (⟨S1700000, .i32⟩ : BufTy).Contents (Elt F) :=
  concatenate S1700000 0 [⟨S1600000, s⟩, ⟨S100000, iotaInDim S100000 32 0⟩] concatenates_S1600000_S100000_S1700000_d0

/-- The degree of every node: a one added at the target of every edge and self loop. -/
def degree (d : (⟨S1600000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (withLoops (F := F) d))
    (broadcastInDim S1700000 ![] bcast_S_S1700000 (constant S_ .f32 0x3F800000#32))

/-- The weight of every node: the reciprocal square root of its degree where positive, zero elsewhere. -/
def invSqrtDeg (d : (⟨S1600000, .i32⟩ : BufTy).Contents (Elt F)) : (⟨S100000, .f32⟩ : BufTy).Contents (Elt F) :=
  select (cmpf .ogt (degree (F := F) d) (broadcastInDim S100000 ![] bcast_S_S100000 (constant S_ .f32 0x00000000#32)))
    (Host.rsqrt (degree (F := F) d))
    (broadcastInDim S100000 ![] bcast_S_S100000 (constant S_ .f32 0x00000000#32))

/-- Node indices with a negative value wrapped once around the 100000 nodes. -/
def wrapIdx (s : (⟨S1700000, .i32⟩ : BufTy).Contents (Elt F)) : (⟨S1700000, .i32⟩ : BufTy).Contents (Elt F) :=
  select (cmpi .slt s (broadcastInDim S1700000 ![] bcast_S_S1700000 (constantI S_ 32 0#32)))
    (addi s (broadcastInDim S1700000 ![] bcast_S_S1700000 (constantI S_ 32 100000#32))) s

/-- Every edge's coefficient, the product of its end nodes' weights. -/
def normVec (s d : (⟨S1600000, .i32⟩ : BufTy).Contents (Elt F)) : (⟨S1700000, .f32⟩ : BufTy).Contents (Elt F) :=
  mulf
    (Host.gather gather_S100000_S1700000x1_S1700000_n_0_n_n_0_1_1 (invSqrtDeg (F := F) d)
      (broadcastInDim S1700000x1 ![0] bcast_S1700000_S1700000x1_0 (wrapIdx (F := F) (withLoops (F := F) s))))
    (Host.gather gather_S100000_S1700000x1_S1700000_n_0_n_n_0_1_1 (invSqrtDeg (F := F) d)
      (broadcastInDim S1700000x1 ![0] bcast_S1700000_S1700000x1_0 (wrapIdx (F := F) (withLoops (F := F) d))))

/-- One convolution of the features h over the graph whose edges run from s to d. -/
def convOf (h : (⟨S100000x128, .f32⟩ : BufTy).Contents (Elt F)) (s d : (⟨S1600000, .i32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 (withLoops (F := F) d))
    (mulf
      (Host.gather gather_S100000x128_S1700000x1_S1700000x128_1_0_n_n_0_1_1128 h
        (broadcastInDim S1700000x1 ![0] bcast_S1700000_S1700000x1_0 (wrapIdx (F := F) (withLoops (F := F) s))))
      (broadcastInDim S1700000x128 ![0, 1] bcast_S1700000x1_S1700000x128_0_1
        (broadcastInDim S1700000x1 ![0] bcast_S1700000_S1700000x1_0 (normVec (F := F) s d))))

/-- One convolution of the features over the graph the edge list gives. -/
def conv (h : (⟨S100000x128, .f32⟩ : BufTy).Contents (Elt F)) (e : (⟨S2x1600000, .i32⟩ : BufTy).Contents (Elt F)) : (⟨S100000x128, .f32⟩ : BufTy).Contents (Elt F) :=
  convOf (F := F) h (srcRow (F := F) e) (dstRow (F := F) e)

/-- Features times a weight, on the host. -/
def hDot (x : (⟨S100000x128, .f32⟩ : BufTy).Contents (Elt F)) (w : (⟨S128x128, .f32⟩ : BufTy).Contents (Elt F)) : (⟨S100000x128, .f32⟩ : BufTy).Contents (Elt F) :=
  Host.dotGeneral dot_S100000x128_S128x128_S100000x128_1_0_0_1_n_n none x w

/-- A vector laid along every row and added. -/
def hBias (y : (⟨S100000x128, .f32⟩ : BufTy).Contents (Elt F)) (v : (⟨S128, .f32⟩ : BufTy).Contents (Elt F)) : (⟨S100000x128, .f32⟩ : BufTy).Contents (Elt F) :=
  addf y (broadcastInDim S100000x128 ![0, 1] bcast_S1x128_S100000x128_0_1 (broadcastInDim S1x128 ![1] bcast_S128_S1x128_1 v))

/-- The maximum with zero. -/
def hRelu (y : (⟨S100000x128, .f32⟩ : BufTy).Contents (Elt F)) : (⟨S100000x128, .f32⟩ : BufTy).Contents (Elt F) :=
  maximumf y (broadcastInDim S100000x128 ![] bcast_S_S100000x128 (constant S_ .f32 0x00000000#32))

/-- The host's normalisation of every row, scaled by g and shifted by b. -/
def hNorm (y : (⟨S100000x128, .f32⟩ : BufTy).Contents (Elt F)) (g b : (⟨S128, .f32⟩ : BufTy).Contents (Elt F)) : (⟨S100000x128, .f32⟩ : BufTy).Contents (Elt F) :=
  addf (mulf (mulf
        (subf y (broadcastInDim S100000x128 ![0, 1] bcast_S100000x1_S100000x128_0_1
          (Host.divf (broadcastInDim S100000x1 ![0] bcast_S100000_S100000x1_0 (Host.reduceAdd y (constant S_ .f32 0x00000000#32) reducesTo_S100000x128_S100000_d1 h_S_)) (broadcastInDim S100000x1 ![] bcast_S_S100000x1 (constant S_ .f32 0x43000000#32)))))
        (broadcastInDim S100000x128 ![0, 1] bcast_S100000x1_S100000x128_0_1 (Host.rsqrt (addf
          (Host.divf (broadcastInDim S100000x1 ![0] bcast_S100000_S100000x1_0 (Host.reduceAdd
              (mulf (subf y (broadcastInDim S100000x128 ![0, 1] bcast_S100000x1_S100000x128_0_1
                      (Host.divf (broadcastInDim S100000x1 ![0] bcast_S100000_S100000x1_0 (Host.reduceAdd y (constant S_ .f32 0x00000000#32) reducesTo_S100000x128_S100000_d1 h_S_)) (broadcastInDim S100000x1 ![] bcast_S_S100000x1 (constant S_ .f32 0x43000000#32)))))
                    (subf y (broadcastInDim S100000x128 ![0, 1] bcast_S100000x1_S100000x128_0_1
                      (Host.divf (broadcastInDim S100000x1 ![0] bcast_S100000_S100000x1_0 (Host.reduceAdd y (constant S_ .f32 0x00000000#32) reducesTo_S100000x128_S100000_d1 h_S_)) (broadcastInDim S100000x1 ![] bcast_S_S100000x1 (constant S_ .f32 0x43000000#32))))))
              (constant S_ .f32 0x00000000#32) reducesTo_S100000x128_S100000_d1 h_S_)) (broadcastInDim S100000x1 ![] bcast_S_S100000x1 (constant S_ .f32 0x43000000#32)))
          (broadcastInDim S100000x1 ![] bcast_S_S100000x1 (constant S_ .f32 0x3727C5AC#32))))))
        (broadcastInDim S100000x128 ![0, 1] bcast_S1x128_S100000x128_0_1 (broadcastInDim S1x128 ![1] bcast_S128_S1x128_1 g)))
      (broadcastInDim S100000x128 ![0, 1] bcast_S1x128_S100000x128_0_1 (broadcastInDim S1x128 ![1] bcast_S128_S1x128_1 b))

/-- The first layer as the reference spells it. -/
def refLayer1 (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) :
    (⟨S100000x128, .f32⟩ : BufTy).Contents (Elt F) :=
  hRelu (F := F) (hBias (F := F) (conv (F := F) (hDot (F := F) x0 x2) x1) x3)

/-- The second layer from the normalised features n1, the first layer's output l1 added back. -/
def refLayer2 (l1 n1 : (⟨S100000x128, .f32⟩ : BufTy).Contents (Elt F)) (s d : (⟨S1600000, .i32⟩ : BufTy).Contents (Elt F)) (x4 : (⟨S128x128, .f32⟩ : BufTy).Contents (Elt F)) (x5 : (⟨S128, .f32⟩ : BufTy).Contents (Elt F)) :
    (⟨S100000x128, .f32⟩ : BufTy).Contents (Elt F) :=
  addf (hRelu (F := F) (hBias (F := F) (convOf (F := F) (hDot (F := F) n1 x4) s d) x5)) l1

/-- The third convolution with its bias, from the second layer's output. -/
def refPre3 (l2 : (⟨S100000x128, .f32⟩ : BufTy).Contents (Elt F)) (s d : (⟨S1600000, .i32⟩ : BufTy).Contents (Elt F)) (x6 : (⟨S128x128, .f32⟩ : BufTy).Contents (Elt F)) (x7 : (⟨S128, .f32⟩ : BufTy).Contents (Elt F)) :
    (⟨S100000x128, .f32⟩ : BufTy).Contents (Elt F) :=
  hBias (F := F) (convOf (F := F) (hDot (F := F) l2 x6) s d) x7

/-- The reference's result as a function of the twelve arguments. -/
def refNet (a0 : (⟨S100000x128, .f32⟩ : BufTy).Contents (Elt F)) (a1 : (⟨S2x1600000, .i32⟩ : BufTy).Contents (Elt F))
    (a2 : (⟨S128x128, .f32⟩ : BufTy).Contents (Elt F)) (a3 : (⟨S128, .f32⟩ : BufTy).Contents (Elt F))
    (a4 : (⟨S128x128, .f32⟩ : BufTy).Contents (Elt F)) (a5 : (⟨S128, .f32⟩ : BufTy).Contents (Elt F))
    (a6 : (⟨S128x128, .f32⟩ : BufTy).Contents (Elt F)) (a7 a8 a9 a10 a11 : (⟨S128, .f32⟩ : BufTy).Contents (Elt F)) :
    (⟨S100000x128, .f32⟩ : BufTy).Contents (Elt F) :=
  hNorm (F := F) (refPre3 (F := F) (refLayer2 (F := F) (refLayer1 (F := F) a0 a1 a2 a3)
    (hNorm (F := F) (refLayer1 (F := F) a0 a1 a2 a3) a8 a9) (srcRow (F := F) a1) (dstRow (F := F) a1) a4 a5) (srcRow (F := F) a1) (dstRow (F := F) a1) a6 a7) a10 a11

end Cert.ReferenceIdeal.Hand

end
-- ==== Proof.RefRun.lean ====
/-
  The reference's @main in five stretches and what each leaves: the first layer (from the arguments), the row
  normalisation of the first layer's output, the second layer with the first layer's output added back, the third
  convolution with its bias, and the final row normalisation. Each stretch's result is a function of the few buffers it
  reads; every other buffer passes through it unchanged; the whole run is the five in sequence.
-/
import proofs.«118496_j57329223467299_1_alg».proof.Proof.RefOps
import proofs.«118496_j57329223467299_1_alg».proof.Proof.RefDefs

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Running one list of operations after another. -/
theorem after_append (a b : List (HloOp τ sig (Elt F))) (V : Valuation τ sig (Elt F)) :
    after (a ++ b) V = after b (after a V) := by
  induction a generalizing V with
  | nil => rfl
  | cons op a ih => exact ih (op.result V)

/-- An operation that writes one listed buffer writes inside the list. -/
theorem writes_sub_of_mem {Wl : List (Ref sig .tc)} (y : Ref sig .tc) (hy : y ∈ Wl) :
    ({Proc.devRef (τ := τ) .tc y} : Finset (DevRef τ sig)) ⊆ (Wl.map (Proc.devRef (τ := τ) .tc)).toFinset :=
  Finset.singleton_subset_iff.mpr (List.mem_toFinset.mpr (List.mem_map_of_mem hy))

theorem ops1_writes : (ops1 : List (HloOp τ sig (Elt F))).Forall fun op => op.writes ⊆ (ops1W.map (Proc.devRef (τ := τ) .tc)).toFinset :=
  ⟨writes_sub_of_mem main_v0 (by decide), writes_sub_of_mem main_v1 (by decide), writes_sub_of_mem main_v2 (by decide), writes_sub_of_mem main_v3 (by decide), writes_sub_of_mem main_v4 (by decide), writes_sub_of_mem main_v5 (by decide), writes_sub_of_mem main_v6 (by decide), writes_sub_of_mem main_v7 (by decide), writes_sub_of_mem main_cst (by decide), writes_sub_of_mem main_v8 (by decide), writes_sub_of_mem main_cst_0 (by decide), writes_sub_of_mem main_v9 (by decide), writes_sub_of_mem main_v10 (by decide), writes_sub_of_mem main_v11 (by decide), writes_sub_of_mem main_cst_1 (by decide), writes_sub_of_mem main_v12 (by decide), writes_sub_of_mem main_v13 (by decide), writes_sub_of_mem main_v14 (by decide), writes_sub_of_mem main_cst_2 (by decide), writes_sub_of_mem main_call0_v0 (by decide), writes_sub_of_mem main_call0_v1 (by decide), writes_sub_of_mem main_v15 (by decide), writes_sub_of_mem main_c (by decide), writes_sub_of_mem main_v16 (by decide), writes_sub_of_mem main_v17 (by decide), writes_sub_of_mem main_c_3 (by decide), writes_sub_of_mem main_v18 (by decide), writes_sub_of_mem main_v19 (by decide), writes_sub_of_mem main_v20 (by decide), writes_sub_of_mem main_v21 (by decide), writes_sub_of_mem main_v22 (by decide), writes_sub_of_mem main_c_4 (by decide), writes_sub_of_mem main_v23 (by decide), writes_sub_of_mem main_v24 (by decide), writes_sub_of_mem main_c_5 (by decide), writes_sub_of_mem main_v25 (by decide), writes_sub_of_mem main_v26 (by decide), writes_sub_of_mem main_v27 (by decide), writes_sub_of_mem main_v28 (by decide), writes_sub_of_mem main_v29 (by decide), writes_sub_of_mem main_v30 (by decide), writes_sub_of_mem main_c_6 (by decide), writes_sub_of_mem main_v31 (by decide), writes_sub_of_mem main_v32 (by decide), writes_sub_of_mem main_c_7 (by decide), writes_sub_of_mem main_v33 (by decide), writes_sub_of_mem main_v34 (by decide), writes_sub_of_mem main_v35 (by decide), writes_sub_of_mem main_v36 (by decide), writes_sub_of_mem main_v37 (by decide), writes_sub_of_mem main_v38 (by decide), writes_sub_of_mem main_v39 (by decide), writes_sub_of_mem main_v40 (by decide), writes_sub_of_mem main_cst_8 (by decide), writes_sub_of_mem main_v41 (by decide), writes_sub_of_mem main_v42 (by decide), writes_sub_of_mem main_v43 (by decide), writes_sub_of_mem main_v44 (by decide), writes_sub_of_mem main_v45 (by decide), writes_sub_of_mem main_v46 (by decide), writes_sub_of_mem main_call1_cst (by decide), writes_sub_of_mem main_call1_v0 (by decide), writes_sub_of_mem main_v47 (by decide)⟩
/-- Stretch 1 leaves every buffer it does not write as it found it. -/
theorem keep1 (W : Valuation τ sig (Elt F)) (b : Ref sig .tc) (hb : b ∉ ops1W) :
    after ops1 W (Proc.devRef .tc b) = W (Proc.devRef .tc b) :=
  after_of_writes_sub ops1 W ops1_writes hb

theorem ops2_writes : (ops2 : List (HloOp τ sig (Elt F))).Forall fun op => op.writes ⊆ (ops2W.map (Proc.devRef (τ := τ) .tc)).toFinset :=
  ⟨writes_sub_of_mem main_cst_9 (by decide), writes_sub_of_mem main_v48 (by decide), writes_sub_of_mem main_v49 (by decide), writes_sub_of_mem main_cst_10 (by decide), writes_sub_of_mem main_v50 (by decide), writes_sub_of_mem main_v51 (by decide), writes_sub_of_mem main_v52 (by decide), writes_sub_of_mem main_v53 (by decide), writes_sub_of_mem main_v54 (by decide), writes_sub_of_mem main_cst_11 (by decide), writes_sub_of_mem main_v55 (by decide), writes_sub_of_mem main_v56 (by decide), writes_sub_of_mem main_cst_12 (by decide), writes_sub_of_mem main_v57 (by decide), writes_sub_of_mem main_v58 (by decide), writes_sub_of_mem main_v59 (by decide), writes_sub_of_mem main_v60 (by decide), writes_sub_of_mem main_cst_13 (by decide), writes_sub_of_mem main_v61 (by decide), writes_sub_of_mem main_v62 (by decide), writes_sub_of_mem main_v63 (by decide), writes_sub_of_mem main_v64 (by decide), writes_sub_of_mem main_v65 (by decide), writes_sub_of_mem main_v66 (by decide), writes_sub_of_mem main_v67 (by decide), writes_sub_of_mem main_v68 (by decide), writes_sub_of_mem main_v69 (by decide), writes_sub_of_mem main_v70 (by decide), writes_sub_of_mem main_v71 (by decide)⟩
/-- Stretch 2 leaves every buffer it does not write as it found it. -/
theorem keep2 (W : Valuation τ sig (Elt F)) (b : Ref sig .tc) (hb : b ∉ ops2W) :
    after ops2 W (Proc.devRef .tc b) = W (Proc.devRef .tc b) :=
  after_of_writes_sub ops2 W ops2_writes hb

theorem ops3_writes : (ops3 : List (HloOp τ sig (Elt F))).Forall fun op => op.writes ⊆ (ops3W.map (Proc.devRef (τ := τ) .tc)).toFinset :=
  ⟨writes_sub_of_mem main_v72 (by decide), writes_sub_of_mem main_v73 (by decide), writes_sub_of_mem main_v74 (by decide), writes_sub_of_mem main_v75 (by decide), writes_sub_of_mem main_cst_14 (by decide), writes_sub_of_mem main_v76 (by decide), writes_sub_of_mem main_cst_15 (by decide), writes_sub_of_mem main_v77 (by decide), writes_sub_of_mem main_v78 (by decide), writes_sub_of_mem main_v79 (by decide), writes_sub_of_mem main_cst_16 (by decide), writes_sub_of_mem main_v80 (by decide), writes_sub_of_mem main_v81 (by decide), writes_sub_of_mem main_v82 (by decide), writes_sub_of_mem main_cst_17 (by decide), writes_sub_of_mem main_call2_v0 (by decide), writes_sub_of_mem main_call2_v1 (by decide), writes_sub_of_mem main_v83 (by decide), writes_sub_of_mem main_c_18 (by decide), writes_sub_of_mem main_v84 (by decide), writes_sub_of_mem main_v85 (by decide), writes_sub_of_mem main_c_19 (by decide), writes_sub_of_mem main_v86 (by decide), writes_sub_of_mem main_v87 (by decide), writes_sub_of_mem main_v88 (by decide), writes_sub_of_mem main_v89 (by decide), writes_sub_of_mem main_v90 (by decide), writes_sub_of_mem main_c_20 (by decide), writes_sub_of_mem main_v91 (by decide), writes_sub_of_mem main_v92 (by decide), writes_sub_of_mem main_c_21 (by decide), writes_sub_of_mem main_v93 (by decide), writes_sub_of_mem main_v94 (by decide), writes_sub_of_mem main_v95 (by decide), writes_sub_of_mem main_v96 (by decide), writes_sub_of_mem main_v97 (by decide), writes_sub_of_mem main_v98 (by decide), writes_sub_of_mem main_c_22 (by decide), writes_sub_of_mem main_v99 (by decide), writes_sub_of_mem main_v100 (by decide), writes_sub_of_mem main_c_23 (by decide), writes_sub_of_mem main_v101 (by decide), writes_sub_of_mem main_v102 (by decide), writes_sub_of_mem main_v103 (by decide), writes_sub_of_mem main_v104 (by decide), writes_sub_of_mem main_v105 (by decide), writes_sub_of_mem main_v106 (by decide), writes_sub_of_mem main_v107 (by decide), writes_sub_of_mem main_v108 (by decide), writes_sub_of_mem main_cst_24 (by decide), writes_sub_of_mem main_v109 (by decide), writes_sub_of_mem main_v110 (by decide), writes_sub_of_mem main_v111 (by decide), writes_sub_of_mem main_v112 (by decide), writes_sub_of_mem main_v113 (by decide), writes_sub_of_mem main_v114 (by decide), writes_sub_of_mem main_call3_cst (by decide), writes_sub_of_mem main_call3_v0 (by decide), writes_sub_of_mem main_v115 (by decide), writes_sub_of_mem main_v116 (by decide)⟩
/-- Stretch 3 leaves every buffer it does not write as it found it. -/
theorem keep3 (W : Valuation τ sig (Elt F)) (b : Ref sig .tc) (hb : b ∉ ops3W) :
    after ops3 W (Proc.devRef .tc b) = W (Proc.devRef .tc b) :=
  after_of_writes_sub ops3 W ops3_writes hb

theorem ops4_writes : (ops4 : List (HloOp τ sig (Elt F))).Forall fun op => op.writes ⊆ (ops4W.map (Proc.devRef (τ := τ) .tc)).toFinset :=
  ⟨writes_sub_of_mem main_v117 (by decide), writes_sub_of_mem main_v118 (by decide), writes_sub_of_mem main_v119 (by decide), writes_sub_of_mem main_v120 (by decide), writes_sub_of_mem main_cst_25 (by decide), writes_sub_of_mem main_v121 (by decide), writes_sub_of_mem main_cst_26 (by decide), writes_sub_of_mem main_v122 (by decide), writes_sub_of_mem main_v123 (by decide), writes_sub_of_mem main_v124 (by decide), writes_sub_of_mem main_cst_27 (by decide), writes_sub_of_mem main_v125 (by decide), writes_sub_of_mem main_v126 (by decide), writes_sub_of_mem main_v127 (by decide), writes_sub_of_mem main_cst_28 (by decide), writes_sub_of_mem main_call4_v0 (by decide), writes_sub_of_mem main_call4_v1 (by decide), writes_sub_of_mem main_v128 (by decide), writes_sub_of_mem main_c_29 (by decide), writes_sub_of_mem main_v129 (by decide), writes_sub_of_mem main_v130 (by decide), writes_sub_of_mem main_c_30 (by decide), writes_sub_of_mem main_v131 (by decide), writes_sub_of_mem main_v132 (by decide), writes_sub_of_mem main_v133 (by decide), writes_sub_of_mem main_v134 (by decide), writes_sub_of_mem main_v135 (by decide), writes_sub_of_mem main_c_31 (by decide), writes_sub_of_mem main_v136 (by decide), writes_sub_of_mem main_v137 (by decide), writes_sub_of_mem main_c_32 (by decide), writes_sub_of_mem main_v138 (by decide), writes_sub_of_mem main_v139 (by decide), writes_sub_of_mem main_v140 (by decide), writes_sub_of_mem main_v141 (by decide), writes_sub_of_mem main_v142 (by decide), writes_sub_of_mem main_v143 (by decide), writes_sub_of_mem main_c_33 (by decide), writes_sub_of_mem main_v144 (by decide), writes_sub_of_mem main_v145 (by decide), writes_sub_of_mem main_c_34 (by decide), writes_sub_of_mem main_v146 (by decide), writes_sub_of_mem main_v147 (by decide), writes_sub_of_mem main_v148 (by decide), writes_sub_of_mem main_v149 (by decide), writes_sub_of_mem main_v150 (by decide), writes_sub_of_mem main_v151 (by decide), writes_sub_of_mem main_v152 (by decide), writes_sub_of_mem main_v153 (by decide), writes_sub_of_mem main_cst_35 (by decide), writes_sub_of_mem main_v154 (by decide), writes_sub_of_mem main_v155 (by decide), writes_sub_of_mem main_v156 (by decide), writes_sub_of_mem main_v157 (by decide), writes_sub_of_mem main_v158 (by decide), writes_sub_of_mem main_v159 (by decide)⟩
/-- Stretch 4 leaves every buffer it does not write as it found it. -/
theorem keep4 (W : Valuation τ sig (Elt F)) (b : Ref sig .tc) (hb : b ∉ ops4W) :
    after ops4 W (Proc.devRef .tc b) = W (Proc.devRef .tc b) :=
  after_of_writes_sub ops4 W ops4_writes hb

theorem ops5_writes : (ops5 : List (HloOp τ sig (Elt F))).Forall fun op => op.writes ⊆ (ops5W.map (Proc.devRef (τ := τ) .tc)).toFinset :=
  ⟨writes_sub_of_mem main_cst_36 (by decide), writes_sub_of_mem main_v160 (by decide), writes_sub_of_mem main_v161 (by decide), writes_sub_of_mem main_cst_37 (by decide), writes_sub_of_mem main_v162 (by decide), writes_sub_of_mem main_v163 (by decide), writes_sub_of_mem main_v164 (by decide), writes_sub_of_mem main_v165 (by decide), writes_sub_of_mem main_v166 (by decide), writes_sub_of_mem main_cst_38 (by decide), writes_sub_of_mem main_v167 (by decide), writes_sub_of_mem main_v168 (by decide), writes_sub_of_mem main_cst_39 (by decide), writes_sub_of_mem main_v169 (by decide), writes_sub_of_mem main_v170 (by decide), writes_sub_of_mem main_v171 (by decide), writes_sub_of_mem main_v172 (by decide), writes_sub_of_mem main_cst_40 (by decide), writes_sub_of_mem main_v173 (by decide), writes_sub_of_mem main_v174 (by decide), writes_sub_of_mem main_v175 (by decide), writes_sub_of_mem main_v176 (by decide), writes_sub_of_mem main_v177 (by decide), writes_sub_of_mem main_v178 (by decide), writes_sub_of_mem main_v179 (by decide), writes_sub_of_mem main_v180 (by decide), writes_sub_of_mem main_v181 (by decide), writes_sub_of_mem main_v182 (by decide), writes_sub_of_mem main_v183 (by decide)⟩
/-- Stretch 5 leaves every buffer it does not write as it found it. -/
theorem keep5 (W : Valuation τ sig (Elt F)) (b : Ref sig .tc) (hb : b ∉ ops5W) :
    after ops5 W (Proc.devRef .tc b) = W (Proc.devRef .tc b) :=
  after_of_writes_sub ops5 W ops5_writes hb

set_option maxHeartbeats 4000000 in
/-- @main's operations are the five stretches in order. -/
theorem ops_split : (ops : List (HloOp τ sig (Elt F))) = ops1 ++ (ops2 ++ (ops3 ++ (ops4 ++ ops5))) := rfl

set_option maxHeartbeats 64000000 in
/-- The first stretch leaves the first layer of the arguments. -/
theorem chunk1 (W : Valuation τ sig (Elt F)) :
    after ops1 W (Proc.devRef .tc main_v47) = refLayer1 (F := F) (W (Proc.devRef .tc main_arg0)) (W (Proc.devRef .tc main_arg1)) (W (Proc.devRef .tc main_arg2)) (W (Proc.devRef .tc main_arg3)) := by
  after_results_simp <;> rfl

set_option maxHeartbeats 64000000 in
/-- The first stretch also leaves the edge list's two rows, which the later stretches read. -/
theorem chunk1_v1 (W : Valuation τ sig (Elt F)) : after ops1 W (Proc.devRef .tc main_v1) = srcRow (F := F) (W (Proc.devRef .tc main_arg1)) := by
  after_results_simp <;> rfl

set_option maxHeartbeats 64000000 in
theorem chunk1_v3 (W : Valuation τ sig (Elt F)) : after ops1 W (Proc.devRef .tc main_v3) = dstRow (F := F) (W (Proc.devRef .tc main_arg1)) := by
  after_results_simp <;> rfl

set_option maxHeartbeats 64000000 in
/-- The second stretch normalises the rows of the first layer's output. -/
theorem chunk2 (W : Valuation τ sig (Elt F)) :
    after ops2 W (Proc.devRef .tc main_v71) = hNorm (F := F) (W (Proc.devRef .tc main_v47)) (W (Proc.devRef .tc main_arg8)) (W (Proc.devRef .tc main_arg9)) := by
  after_results_simp <;> rfl

set_option maxHeartbeats 64000000 in
/-- The third stretch leaves the second layer. -/
theorem chunk3 (W : Valuation τ sig (Elt F)) :
    after ops3 W (Proc.devRef .tc main_v116) = refLayer2 (F := F) (W (Proc.devRef .tc main_v47)) (W (Proc.devRef .tc main_v71)) (W (Proc.devRef .tc main_v1)) (W (Proc.devRef .tc main_v3)) (W (Proc.devRef .tc main_arg4)) (W (Proc.devRef .tc main_arg5)) := by
  after_results_simp <;> rfl

set_option maxHeartbeats 64000000 in
/-- The fourth stretch leaves the third convolution with its bias. -/
theorem chunk4 (W : Valuation τ sig (Elt F)) :
    after ops4 W (Proc.devRef .tc main_v159) = refPre3 (F := F) (W (Proc.devRef .tc main_v116)) (W (Proc.devRef .tc main_v1)) (W (Proc.devRef .tc main_v3)) (W (Proc.devRef .tc main_arg6)) (W (Proc.devRef .tc main_arg7)) := by
  after_results_simp <;> rfl

set_option maxHeartbeats 64000000 in
/-- The fifth stretch normalises the rows of that. -/
theorem chunk5 (W : Valuation τ sig (Elt F)) :
    after ops5 W (Proc.devRef .tc main_v183) = hNorm (F := F) (W (Proc.devRef .tc main_v159)) (W (Proc.devRef .tc main_arg10)) (W (Proc.devRef .tc main_arg11)) := by
  after_results_simp <;> rfl

/-- A buffer none of the five stretches writes ends as it started. -/
theorem keepAll (W : Valuation τ sig (Elt F)) (b : Ref sig .tc) (h1 : b ∉ ops1W) (h2 : b ∉ ops2W) (h3 : b ∉ ops3W)
    (h4 : b ∉ ops4W) (h5 : b ∉ ops5W) : after ops W (Proc.devRef .tc b) = W (Proc.devRef .tc b) := by
  rw [ops_split, after_append, after_append, after_append, after_append, keep5 _ b h5, keep4 _ b h4, keep3 _ b h3,
    keep2 _ b h2, keep1 _ b h1]

/-- After the whole run the result buffer holds the reference's network of the arguments. -/
theorem value (W : Valuation τ sig (Elt F)) :
    after ops W (Proc.devRef .tc main_v183) = refNet (F := F) (W (Proc.devRef .tc main_arg0)) (W (Proc.devRef .tc main_arg1)) (W (Proc.devRef .tc main_arg2)) (W (Proc.devRef .tc main_arg3))
      (W (Proc.devRef .tc main_arg4)) (W (Proc.devRef .tc main_arg5)) (W (Proc.devRef .tc main_arg6)) (W (Proc.devRef .tc main_arg7)) (W (Proc.devRef .tc main_arg8)) (W (Proc.devRef .tc main_arg9))
      (W (Proc.devRef .tc main_arg10)) (W (Proc.devRef .tc main_arg11)) := by
  have e1 := chunk1 W
  have k2 (b : Ref sig .tc) (h1 : b ∉ ops1W) (h2 : b ∉ ops2W) : after ops2 (after ops1 W) (Proc.devRef .tc b) = W (Proc.devRef .tc b) := by
    rw [keep2 _ b h2, keep1 _ b h1]
  have s2 : after ops2 (after ops1 W) (Proc.devRef .tc main_v1) = srcRow (F := F) (W (Proc.devRef .tc main_arg1)) := by
    rw [keep2 _ main_v1 (by decide), chunk1_v1]
  have d2 : after ops2 (after ops1 W) (Proc.devRef .tc main_v3) = dstRow (F := F) (W (Proc.devRef .tc main_arg1)) := by
    rw [keep2 _ main_v3 (by decide), chunk1_v3]
  have e2 : after ops2 (after ops1 W) (Proc.devRef .tc main_v71) = hNorm (F := F) (refLayer1 (F := F) (W (Proc.devRef .tc main_arg0)) (W (Proc.devRef .tc main_arg1)) (W (Proc.devRef .tc main_arg2)) (W (Proc.devRef .tc main_arg3))) (W (Proc.devRef .tc main_arg8)) (W (Proc.devRef .tc main_arg9)) := by
    rw [chunk2, e1, keep1 W main_arg8 (by decide), keep1 W main_arg9 (by decide)]
  have e2' : after ops2 (after ops1 W) (Proc.devRef .tc main_v47) = refLayer1 (F := F) (W (Proc.devRef .tc main_arg0)) (W (Proc.devRef .tc main_arg1)) (W (Proc.devRef .tc main_arg2)) (W (Proc.devRef .tc main_arg3)) := by
    rw [keep2 _ main_v47 (by decide), e1]
  have e3 : after ops3 (after ops2 (after ops1 W)) (Proc.devRef .tc main_v116) = refLayer2 (F := F) (refLayer1 (F := F) (W (Proc.devRef .tc main_arg0)) (W (Proc.devRef .tc main_arg1)) (W (Proc.devRef .tc main_arg2)) (W (Proc.devRef .tc main_arg3)))
      (hNorm (F := F) (refLayer1 (F := F) (W (Proc.devRef .tc main_arg0)) (W (Proc.devRef .tc main_arg1)) (W (Proc.devRef .tc main_arg2)) (W (Proc.devRef .tc main_arg3))) (W (Proc.devRef .tc main_arg8)) (W (Proc.devRef .tc main_arg9))) (srcRow (F := F) (W (Proc.devRef .tc main_arg1))) (dstRow (F := F) (W (Proc.devRef .tc main_arg1))) (W (Proc.devRef .tc main_arg4)) (W (Proc.devRef .tc main_arg5)) := by
    rw [chunk3, e2, e2', s2, d2, k2 main_arg4 (by decide) (by decide), k2 main_arg5 (by decide) (by decide)]
  have k3 (b : Ref sig .tc) (h1 : b ∉ ops1W) (h2 : b ∉ ops2W) (h3 : b ∉ ops3W) : after ops3 (after ops2 (after ops1 W)) (Proc.devRef .tc b) = W (Proc.devRef .tc b) := by
    rw [keep3 _ b h3, k2 b h1 h2]
  have s3 : after ops3 (after ops2 (after ops1 W)) (Proc.devRef .tc main_v1) = srcRow (F := F) (W (Proc.devRef .tc main_arg1)) := by
    rw [keep3 _ main_v1 (by decide), s2]
  have d3 : after ops3 (after ops2 (after ops1 W)) (Proc.devRef .tc main_v3) = dstRow (F := F) (W (Proc.devRef .tc main_arg1)) := by
    rw [keep3 _ main_v3 (by decide), d2]
  have k4 (b : Ref sig .tc) (h1 : b ∉ ops1W) (h2 : b ∉ ops2W) (h3 : b ∉ ops3W) (h4 : b ∉ ops4W) : after ops4 (after ops3 (after ops2 (after ops1 W))) (Proc.devRef .tc b) = W (Proc.devRef .tc b) := by
    rw [keep4 _ b h4, k3 b h1 h2 h3]
  rw [ops_split, after_append, after_append, after_append, after_append, chunk5, chunk4, e3, s3, d3,
    k3 main_arg6 (by decide) (by decide) (by decide), k3 main_arg7 (by decide) (by decide) (by decide),
    k4 main_arg10 (by decide) (by decide) (by decide) (by decide), k4 main_arg11 (by decide) (by decide) (by decide) (by decide)]
  rfl

/-- On every device, from any memory with zero counters: every weakly fair execution of @main terminates with the result
    buffer at the reference's network of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v183) = refNet (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v183).trans (value (launchContents m c)),
      (h c main_arg0).trans (keepAll (launchContents m c) main_arg0 (by decide) (by decide) (by decide) (by decide) (by decide)),
      (h c main_arg1).trans (keepAll (launchContents m c) main_arg1 (by decide) (by decide) (by decide) (by decide) (by decide)),
      (h c main_arg2).trans (keepAll (launchContents m c) main_arg2 (by decide) (by decide) (by decide) (by decide) (by decide)),
      (h c main_arg3).trans (keepAll (launchContents m c) main_arg3 (by decide) (by decide) (by decide) (by decide) (by decide)),
      (h c main_arg4).trans (keepAll (launchContents m c) main_arg4 (by decide) (by decide) (by decide) (by decide) (by decide)),
      (h c main_arg5).trans (keepAll (launchContents m c) main_arg5 (by decide) (by decide) (by decide) (by decide) (by decide)),
      (h c main_arg6).trans (keepAll (launchContents m c) main_arg6 (by decide) (by decide) (by decide) (by decide) (by decide)),
      (h c main_arg7).trans (keepAll (launchContents m c) main_arg7 (by decide) (by decide) (by decide) (by decide) (by decide)),
      (h c main_arg8).trans (keepAll (launchContents m c) main_arg8 (by decide) (by decide) (by decide) (by decide) (by decide)),
      (h c main_arg9).trans (keepAll (launchContents m c) main_arg9 (by decide) (by decide) (by decide) (by decide) (by decide)),
      (h c main_arg10).trans (keepAll (launchContents m c) main_arg10 (by decide) (by decide) (by decide) (by decide) (by decide)),
      (h c main_arg11).trans (keepAll (launchContents m c) main_arg11 (by decide) (by decide) (by decide) (by decide) (by decide))⟩)
    (run_seq scopedRefs_eq scopedSems_eq defs main (fun _ => ops) main_eq (fun _ => ops_sub) m ρ)

end Cert.ReferenceIdeal.Hand

end
-- ==== Proof.LibRowHost.lean ====
/-
  General lemmas: the host's spelling of the row-wise layers of `LibRowLayer`, over the extended reals. The host lays a
  vector out as a row and a column by broadcasts along named axes, sums over axis 1 from a zero initial value, divides
  by a scalar laid over a column, and takes the maximum with a scalar laid over the whole array; each chain is the array
  built row by row from the row functions `dotRow`, `biasRow`, `reluRow` and `normRow`. Nothing here mentions a program:
  the extents are variables and the shape facts are hypotheses.
-/
import proofs.«118496_j57329223467299_1_alg».proof.Proof.LibRowLayer

noncomputable section

namespace Cert.LibRowLayer

open Idealize.ShloMosaic Idealize.ShloMosaic.ValueIdx

variable {a k n : ℕ}

/-! ## The host's chains -/

/-- A column [a, 1] laid along every lane of an [a, n] array by a broadcast along both axes reads, at (p, j), the
    column's entry of row p. -/
theorem broadcastInDim_a1_an_apply {α : Type} (hd : (⟨2, ![a, 1]⟩ : Shape).BroadcastsInDim ⟨2, ![a, n]⟩ ![0, 1])
    (v : (⟨2, ![a, 1]⟩ : Shape).Idx → α) (p : Fin a) (j : Fin n) :
    broadcastInDim ⟨2, ![a, n]⟩ ![0, 1] hd v (ix2 p j) = v (ix2 p (0 : Fin 1)) := by
  refine broadcastInDim_apply ![0, 1] hd v (ix2 p j) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else j.val
    rw [if_pos rfl]

/-- The host's plain product is row by row the row times the weight. -/
theorem hostDot_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (x : FVec Ideal ⟨2, ![a, k]⟩ .f32) (w : FVec Ideal ⟨2, ![k, n]⟩ .f32) :
    Host.dotGeneral D prec x w = byRows fun p => dotRow (row x p) w := by
  funext i
  obtain ⟨p, j, rfl⟩ : ∃ (p : Fin a) (j : Fin n), i = ix2 p j := ⟨i 0, i 1, eq_ix2 i⟩
  exact LibAffine.hostDot_ix2 D hr hs hl0 hl1 hr0 hr1 prec x w p j

/-- A vector laid out as a row and that row laid along every row of an [a, n] array, at (p, j): the vector's entry j,
    which is also entry (0, j) of the vector reshaped into a row. -/
theorem hostRowBcast_ix2 (h1 : (⟨1, ![n]⟩ : Shape).BroadcastsInDim ⟨2, ![1, n]⟩ ![1])
    (h01 : (⟨2, ![1, n]⟩ : Shape).BroadcastsInDim ⟨2, ![a, n]⟩ ![0, 1]) (hc : (⟨1, ![n]⟩ : Shape).ShapeCasts ⟨2, ![1, n]⟩)
    (v : FVec Ideal ⟨1, ![n]⟩ .f32) (p : Fin a) (j : Fin n) :
    broadcastInDim ⟨2, ![a, n]⟩ ![0, 1] h01 (broadcastInDim ⟨2, ![1, n]⟩ ![1] h1 v) (ix2 p j)
      = shapeCast ⟨2, ![1, n]⟩ v hc (ix2 (0 : Fin 1) j) := by
  rw [LibAffine.broadcastInDim_1n_an_apply, LibColumnRow.shapeCast_row_eq_broadcastInDim v hc h1]

/-- The host's bias: an array plus a vector laid along every row. -/
theorem hostBias_eq (h1 : (⟨1, ![n]⟩ : Shape).BroadcastsInDim ⟨2, ![1, n]⟩ ![1])
    (h01 : (⟨2, ![1, n]⟩ : Shape).BroadcastsInDim ⟨2, ![a, n]⟩ ![0, 1]) (hc : (⟨1, ![n]⟩ : Shape).ShapeCasts ⟨2, ![1, n]⟩)
    (x : FVec Ideal ⟨2, ![a, n]⟩ .f32) (v : FVec Ideal ⟨1, ![n]⟩ .f32) :
    addf x (broadcastInDim ⟨2, ![a, n]⟩ ![0, 1] h01 (broadcastInDim ⟨2, ![1, n]⟩ ![1] h1 v))
      = byRows fun p => biasRow (row x p) (shapeCast ⟨2, ![1, n]⟩ v hc) := by
  funext i
  obtain ⟨p, j, rfl⟩ : ∃ (p : Fin a) (j : Fin n), i = ix2 p j := ⟨i 0, i 1, eq_ix2 i⟩
  rw [addf_apply, hostRowBcast_ix2 h1 h01 hc]
  rfl

/-- The host's clip: the maximum with a scalar laid over the whole array. -/
theorem hostRelu_eq (hs : (⟨0, ![]⟩ : Shape).BroadcastsInDim ⟨2, ![a, n]⟩ ![]) (zc : FVec Ideal ⟨0, ![]⟩ .f32)
    (y : FVec Ideal ⟨2, ![a, n]⟩ .f32) :
    maximumf y (broadcastInDim ⟨2, ![a, n]⟩ ![] hs zc) = byRows fun p => reluRow (zc ix0) (row y p) := by
  funext i
  obtain ⟨p, j, rfl⟩ : ∃ (p : Fin a) (j : Fin n), i = ix2 p j := ⟨i 0, i 1, eq_ix2 i⟩
  rw [maximumf_apply, bcastScalar_apply]
  rfl

/-- The host's sum over axis 1 from a zero initial value, read at row p: the sum over the row. -/
theorem hostRowSum_apply (x : FVec Ideal ⟨2, ![a, n]⟩ .f32) (zc : FVec Ideal ⟨0, ![]⟩ .f32)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (hz : zc (Shape.Idx.first hu) = 0) (p : Fin a) :
    Host.reduceAdd x zc h' hu (ix1 p) = ∑ c : Fin n, x (ix2 p c) := by
  show Ideal.hostReduceAdd h' x (zc (Shape.Idx.first hu)) (ix1 p) = _
  rw [Ideal.hostReduceAdd_single h' h x _ (ix1 p), hz, zero_add]
  exact Finset.sum_congr rfl fun c _ => congrArg x (LibDenseOps.lift_lane h p c)

/-- The mean of each row on the host, as a column: the row sums laid out as a column, divided by a scalar laid over
    the column. -/
theorem hostMean_ix2 (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (hcol : (⟨1, ![a]⟩ : Shape).BroadcastsInDim ⟨2, ![a, 1]⟩ ![0])
    (hs1 : (⟨0, ![]⟩ : Shape).BroadcastsInDim ⟨2, ![a, 1]⟩ ![])
    (zc dc : FVec Ideal ⟨0, ![]⟩ .f32) (hz : zc (Shape.Idx.first hu) = 0) (x : FVec Ideal ⟨2, ![a, n]⟩ .f32) (p : Fin a) (u : Fin 1) :
    Host.divf (broadcastInDim ⟨2, ![a, 1]⟩ ![0] hcol (Host.reduceAdd x zc h' hu)) (broadcastInDim ⟨2, ![a, 1]⟩ ![] hs1 dc) (ix2 p u)
      = meanRow (dc ix0) (row x p) := by
  show Ideal.div (broadcastInDim ⟨2, ![a, 1]⟩ ![0] hcol (Host.reduceAdd x zc h' hu) (ix2 p u)) (broadcastInDim ⟨2, ![a, 1]⟩ ![] hs1 dc (ix2 p u)) = _
  rw [LibColumnRow.broadcastInDim_a_a1_apply, bcastScalar_apply, hostRowSum_apply x zc h' h hu hz p]
  rfl

/-- The host's normalisation of each row. -/
theorem hostNorm_eq (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (hcol : (⟨1, ![a]⟩ : Shape).BroadcastsInDim ⟨2, ![a, 1]⟩ ![0])
    (hs1 : (⟨0, ![]⟩ : Shape).BroadcastsInDim ⟨2, ![a, 1]⟩ ![])
    (hcb : (⟨2, ![a, 1]⟩ : Shape).BroadcastsInDim ⟨2, ![a, n]⟩ ![0, 1])
    (h1 : (⟨1, ![n]⟩ : Shape).BroadcastsInDim ⟨2, ![1, n]⟩ ![1])
    (h01 : (⟨2, ![1, n]⟩ : Shape).BroadcastsInDim ⟨2, ![a, n]⟩ ![0, 1]) (hc : (⟨1, ![n]⟩ : Shape).ShapeCasts ⟨2, ![1, n]⟩)
    (z1 d1 z2 d2 ec : FVec Ideal ⟨0, ![]⟩ .f32) (hz1 : z1 (Shape.Idx.first hu) = 0) (hz2 : z2 (Shape.Idx.first hu) = 0)
    (hd : d2 ix0 = d1 ix0)
    (x : FVec Ideal ⟨2, ![a, n]⟩ .f32) (g b : FVec Ideal ⟨1, ![n]⟩ .f32) :
    addf (mulf (mulf
        (subf x (broadcastInDim ⟨2, ![a, n]⟩ ![0, 1] hcb
          (Host.divf (broadcastInDim ⟨2, ![a, 1]⟩ ![0] hcol (Host.reduceAdd x z1 h' hu)) (broadcastInDim ⟨2, ![a, 1]⟩ ![] hs1 d1))))
        (broadcastInDim ⟨2, ![a, n]⟩ ![0, 1] hcb (Host.rsqrt (addf
          (Host.divf (broadcastInDim ⟨2, ![a, 1]⟩ ![0] hcol (Host.reduceAdd
              (mulf (subf x (broadcastInDim ⟨2, ![a, n]⟩ ![0, 1] hcb
                      (Host.divf (broadcastInDim ⟨2, ![a, 1]⟩ ![0] hcol (Host.reduceAdd x z1 h' hu)) (broadcastInDim ⟨2, ![a, 1]⟩ ![] hs1 d1))))
                    (subf x (broadcastInDim ⟨2, ![a, n]⟩ ![0, 1] hcb
                      (Host.divf (broadcastInDim ⟨2, ![a, 1]⟩ ![0] hcol (Host.reduceAdd x z1 h' hu)) (broadcastInDim ⟨2, ![a, 1]⟩ ![] hs1 d1)))))
              z2 h' hu)) (broadcastInDim ⟨2, ![a, 1]⟩ ![] hs1 d2))
          (broadcastInDim ⟨2, ![a, 1]⟩ ![] hs1 ec)))))
        (broadcastInDim ⟨2, ![a, n]⟩ ![0, 1] h01 (broadcastInDim ⟨2, ![1, n]⟩ ![1] h1 g)))
      (broadcastInDim ⟨2, ![a, n]⟩ ![0, 1] h01 (broadcastInDim ⟨2, ![1, n]⟩ ![1] h1 b))
      = byRows fun p => normRow (d1 ix0) (ec ix0) (row x p) (shapeCast ⟨2, ![1, n]⟩ g hc) (shapeCast ⟨2, ![1, n]⟩ b hc) := by
  funext i
  obtain ⟨p, j, rfl⟩ : ∃ (p : Fin a) (j : Fin n), i = ix2 p j := ⟨i 0, i 1, eq_ix2 i⟩
  rw [addf_apply, mulf_apply, mulf_apply, subf_apply, hostRowBcast_ix2 h1 h01 hc, hostRowBcast_ix2 h1 h01 hc,
    broadcastInDim_a1_an_apply, broadcastInDim_a1_an_apply, hostMean_ix2 h' h hu hcol hs1 z1 d1 hz1 x p]
  show (x (ix2 p j) - meanRow (d1 ix0) (row x p)) * Ideal.rsqrt (_ + _) * _ + _ = _
  rw [bcastScalar_apply]
  have hv : Host.divf (broadcastInDim ⟨2, ![a, 1]⟩ ![0] hcol (Host.reduceAdd
              (mulf (subf x (broadcastInDim ⟨2, ![a, n]⟩ ![0, 1] hcb
                      (Host.divf (broadcastInDim ⟨2, ![a, 1]⟩ ![0] hcol (Host.reduceAdd x z1 h' hu)) (broadcastInDim ⟨2, ![a, 1]⟩ ![] hs1 d1))))
                    (subf x (broadcastInDim ⟨2, ![a, n]⟩ ![0, 1] hcb
                      (Host.divf (broadcastInDim ⟨2, ![a, 1]⟩ ![0] hcol (Host.reduceAdd x z1 h' hu)) (broadcastInDim ⟨2, ![a, 1]⟩ ![] hs1 d1)))))
              z2 h' hu)) (broadcastInDim ⟨2, ![a, 1]⟩ ![] hs1 d2) (ix2 p (0 : Fin 1))
      = Ideal.div (∑ c : Fin n, (row x p c - meanRow (d1 ix0) (row x p)) * (row x p c - meanRow (d1 ix0) (row x p))) (d1 ix0) := by
    rw [hostMean_ix2 h' h hu hcol hs1 z2 d2 hz2 _ p, hd]
    refine congrArg (fun s => Ideal.div s (d1 ix0)) (Finset.sum_congr rfl fun c _ => ?_)
    show mulf _ _ (ix2 p c) = _
    rw [mulf_apply, subf_apply, broadcastInDim_a1_an_apply, hostMean_ix2 h' h hu hcol hs1 z1 d1 hz1 x p]
    rfl
  rw [hv]
  rfl

/-- Adding a second array to an array built row by row. -/
theorem hostAdd_eq {m : ℕ} (f : Fin a → Fin m → Ideal .f32) (y : FVec Ideal ⟨2, ![a, m]⟩ .f32) :
    addf (byRows f) y = byRows fun p j => f p j + row y p j := by
  funext i
  obtain ⟨p, j, rfl⟩ : ∃ (p : Fin a) (j : Fin m), i = ix2 p j := ⟨i 0, i 1, eq_ix2 i⟩
  rfl

end Cert.LibRowLayer

end
-- ==== Proof.RefValue.lean ====
/-
  The reference's network is the network. At the ideal values the reference's product with a weight is row by row the row
  times the weight, its vector laid along every row and added is the bias row, its maximum with zero is the clip, its
  chain of row sums, quotients by 128, differences and a reciprocal square root is the row normalisation, and its
  edge-wise gather, scale and scatter is the convolution the kernel's host side computes (the same operations with the same
  dimension records).
-/
import proofs.«118496_j57329223467299_1_alg».proof.Proof.RefDefs
import proofs.«118496_j57329223467299_1_alg».proof.Proof.Spec
import proofs.«118496_j57329223467299_1_alg».proof.Proof.LibRowHost
import Idealize.ShloMosaic.PureOps.Ideal.Laws

noncomputable section

namespace Cert.ReferenceIdeal.Hand

open Cert.ReferenceIdeal Cert.ReferenceIdeal.Gen
open Idealize.ShloMosaic Idealize.ShloMosaic.ValueIdx Cert.LibRowLayer
open Cert.KernelIdeal.Hand (mm biasRelu biasReluAdd norm biasNorm rowOf layer1 layer2 net zero32 len128 eps32)

/-! ## Where the host's product reads its operands -/

theorem hdotL0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem hdotL1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem hdotR0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem hdotR1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-! ## The pieces -/

/-- The host's product of features by a weight. -/
theorem dot_eq (x : (⟨S100000x128, .f32⟩ : BufTy).Contents (Elt Ideal)) (w : (⟨S128x128, .f32⟩ : BufTy).Contents (Elt Ideal)) : hDot (F := Ideal) x w = mm x w :=
  hostDot_eq dot_S100000x128_S128x128_S100000x128_1_0_0_1_n_n rfl rfl hdotL0 hdotL1 hdotR0 hdotR1 none x w

/-- A vector laid along every row and added. -/
theorem bias_eq (y : (⟨S100000x128, .f32⟩ : BufTy).Contents (Elt Ideal)) (v : (⟨S128, .f32⟩ : BufTy).Contents (Elt Ideal)) :
    hBias (F := Ideal) y v = byRows fun p => biasRow (row y p) (rowOf v) :=
  hostBias_eq bcast_S128_S1x128_1 bcast_S1x128_S100000x128_0_1 Cert.KernelIdeal.Gen.shapeCasts_S128_S1x128 y v

/-- The maximum with zero laid over the array. -/
theorem relu_eq (y : (⟨S100000x128, .f32⟩ : BufTy).Contents (Elt Ideal)) : hRelu (F := Ideal) y = byRows fun p => reluRow zero32 (row y p) :=
  hostRelu_eq bcast_S_S100000x128 (constant S_ .f32 0x00000000#32) y

/-- The host's row normalisation. -/
theorem norm_eq (y : (⟨S100000x128, .f32⟩ : BufTy).Contents (Elt Ideal)) (g b : (⟨S128, .f32⟩ : BufTy).Contents (Elt Ideal)) : hNorm (F := Ideal) y g b = norm y (rowOf g) (rowOf b) :=
  hostNorm_eq reducesTo_S100000x128_S100000_d1 (by decide) h_S_ bcast_S100000_S100000x1_0 bcast_S_S100000x1
    bcast_S100000x1_S100000x128_0_1 bcast_S128_S1x128_1 bcast_S1x128_S100000x128_0_1 Cert.KernelIdeal.Gen.shapeCasts_S128_S1x128
    (constant S_ .f32 0x00000000#32) (constant S_ .f32 0x43000000#32) (constant S_ .f32 0x00000000#32) (constant S_ .f32 0x43000000#32) (constant S_ .f32 0x3727C5AC#32) Ideal.ofBits_zero_f32 Ideal.ofBits_zero_f32 rfl y g b

/-- The convolution over the edges is the same function in the two programs. -/
theorem conv_eq (h : (⟨S100000x128, .f32⟩ : BufTy).Contents (Elt Ideal)) (e : (⟨S2x1600000, .i32⟩ : BufTy).Contents (Elt Ideal)) :
    conv (F := Ideal) h e = Cert.KernelIdeal.Hand.conv (F := Ideal) h e := rfl

/-- The same, with the edge list's two rows taken apart first. -/
theorem convOf_eq (h : (⟨S100000x128, .f32⟩ : BufTy).Contents (Elt Ideal)) (e : (⟨S2x1600000, .i32⟩ : BufTy).Contents (Elt Ideal)) :
    convOf (F := Ideal) h (srcRow (F := Ideal) e) (dstRow (F := Ideal) e) = Cert.KernelIdeal.Hand.conv (F := Ideal) h e := rfl

/-! ## The layers and the network -/

variable (x0 : (⟨S100000x128, .f32⟩ : BufTy).Contents (Elt Ideal)) (x1 : (⟨S2x1600000, .i32⟩ : BufTy).Contents (Elt Ideal))
  (x2 x4 x6 : (⟨S128x128, .f32⟩ : BufTy).Contents (Elt Ideal)) (x3 x5 x7 x8 x9 x10 x11 : (⟨S128, .f32⟩ : BufTy).Contents (Elt Ideal))

theorem layer1_eq : refLayer1 (F := Ideal) x0 x1 x2 x3 = layer1 x0 x1 x2 x3 := by
  unfold refLayer1
  rw [dot_eq, conv_eq, bias_eq, relu_eq]
  rfl

theorem layer2_eq : refLayer2 (F := Ideal) (layer1 x0 x1 x2 x3) (norm (layer1 x0 x1 x2 x3) (rowOf x8) (rowOf x9))
      (srcRow (F := Ideal) x1) (dstRow (F := Ideal) x1) x4 x5
    = layer2 x0 x1 x2 x3 x4 x5 x8 x9 := by
  unfold refLayer2
  rw [dot_eq, convOf_eq, bias_eq, relu_eq, hostAdd_eq]
  rfl

/-- The reference's network of the arguments is the network of the arguments. -/
theorem refNet_eq : refNet (F := Ideal) x0 x1 x2 x3 x4 x5 x6 x7 x8 x9 x10 x11 = net x0 x1 x2 x3 x4 x5 x6 x7 x8 x9 x10 x11 := by
  unfold refNet
  rw [layer1_eq, norm_eq (layer1 x0 x1 x2 x3) x8 x9, layer2_eq, norm_eq]
  unfold refPre3
  rw [dot_eq, convOf_eq, bias_eq]
  rfl

end Cert.ReferenceIdeal.Hand

end
-- ==== Proof.lean ====
/-
  The certificate: the kernel and the reference compute the same network.

  The kernel is seven launches (three products with a weight on the matrix unit, a bias and clip, a row normalisation,
  a bias and clip with a residual added, a bias and row normalisation) among host stretches that build the graph's edge
  indices and coefficients and carry out the three convolutions over the edges; the reference is one host program. Both
  are read at the ideal values, where a change of float format is the identity and every sum is exact, and both return
  the one function `net` of the twelve arguments: the kernel's launches block by block (each block of a layer is the layer
  of the block, because every layer is row by row), its host stretches and the reference operation by operation. No law of
  the extended reals beyond 0 + x = x is used, so the precondition is not opened. The three programs' frames are the
  generated ones (the reference's is its run with the result dropped); the claim that the idealized kernel is the kernel's
  sanctioned idealization is `True` in the statement (no rewrite is recorded), so it is closed by `trivial`.
-/
import proofs.«118496_j57329223467299_1_alg».proof.Defs
import proofs.«118496_j57329223467299_1_alg».proof.Proof.Gen.Kernel
import proofs.«118496_j57329223467299_1_alg».proof.Proof.Gen.Kernel.Skeleton
import proofs.«118496_j57329223467299_1_alg».proof.Proof.Gen.Kernel.Launch
import proofs.«118496_j57329223467299_1_alg».proof.Proof.Gen.Kernel.Points
import proofs.«118496_j57329223467299_1_alg».proof.Proof.Gen.Kernel.Frame
import proofs.«118496_j57329223467299_1_alg».proof.Proof.Gen.KernelIdeal
import proofs.«118496_j57329223467299_1_alg».proof.Proof.Gen.KernelIdeal.Skeleton
import proofs.«118496_j57329223467299_1_alg».proof.Proof.Gen.KernelIdeal.Launch
import proofs.«118496_j57329223467299_1_alg».proof.Proof.Gen.KernelIdeal.Points
import proofs.«118496_j57329223467299_1_alg».proof.Proof.Gen.KernelIdeal.Frame
import proofs.«118496_j57329223467299_1_alg».proof.Proof.Gen.ReferenceIdeal
import proofs.«118496_j57329223467299_1_alg».proof.Proof.Gen.Pre_finite_inputs
import proofs.«118496_j57329223467299_1_alg».proof.Proof.KernelRun
import proofs.«118496_j57329223467299_1_alg».proof.Proof.KernelValue
import proofs.«118496_j57329223467299_1_alg».proof.Proof.RefRun
import proofs.«118496_j57329223467299_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- Both runs end with the result buffer at the network of the arguments. -/
theorem algebraic : Cert.algebraic_KernelIdeal_ReferenceIdeal := by
  intro m ρ m' ρ' _ hagree
  refine ⟨fun c => Cert.KernelIdeal.Hand.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Hand.kernel_value m ρ c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Hand.run (F := Ideal) m' ρ')
    obtain ⟨e0, e1, e2, e3, e4, e5, e6, e7, e8, e9, e10, e11⟩ := hagree c
    rw [e0, e1, e2, e3, e4, e5, e6, e7, e8, e9, e10, e11]
    exact Cert.ReferenceIdeal.Hand.refNet_eq _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
